-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x2048x1024 .f32) (main_arg1 : FVec F S3072x1024 .f32) (main_arg2 : FVec F S1024x1024 .f32) (main_arg3 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x2048x1024 : Shape := ⟨3, ![4, 2048, 1024]⟩
abbrev S3072x1024 : Shape := ⟨2, ![3072, 1024]⟩
abbrev S1024x1024 : Shape := ⟨2, ![1024, 1024]⟩
abbrev S1024 : Shape := ⟨1, ![1024]⟩
abbrev S8192x1024 : Shape := ⟨2, ![8192, 1024]⟩
abbrev S512x1024 : Shape := ⟨2, ![512, 1024]⟩
abbrev S512x3072 : Shape := ⟨2, ![512, 3072]⟩
abbrev S4x2048x16x64 : Shape := ⟨4, ![4, 2048, 16, 64]⟩
abbrev S4x16x2048x64 : Shape := ⟨4, ![4, 16, 2048, 64]⟩
abbrev S1x1x1024x64 : Shape := ⟨4, ![1, 1, 1024, 64]⟩
abbrev S1x1x2048x64 : Shape := ⟨4, ![1, 1, 2048, 64]⟩
abbrev S1024x64 : Shape := ⟨2, ![1024, 64]⟩
abbrev S2048x64 : Shape := ⟨2, ![2048, 64]⟩
abbrev S1024x2048 : Shape := ⟨2, ![1024, 2048]⟩
abbrev S1024x1 : Shape := ⟨2, ![1024, 1]⟩
abbrev S1x1024 : Shape := ⟨2, ![1, 1024]⟩

abbrev nBuf : Space → Nat
  | .hbm => 23
  | .vmem => 23
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S3072x1024, .bf16⟩
  | .hbm, ⟨5, _⟩ => ⟨S1024x1024, .bf16⟩
  | .hbm, ⟨6, _⟩ => ⟨S8192x1024, .f32⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S4x2048x16x64, .bf16⟩
  | .hbm, ⟨11, _⟩ => ⟨S4x16x2048x64, .bf16⟩
  | .hbm, ⟨12, _⟩ => ⟨S4x2048x16x64, .bf16⟩
  | .hbm, ⟨13, _⟩ => ⟨S4x16x2048x64, .bf16⟩
  | .hbm, ⟨14, _⟩ => ⟨S4x2048x16x64, .bf16⟩
  | .hbm, ⟨15, _⟩ => ⟨S4x16x2048x64, .bf16⟩
  | .hbm, ⟨16, _⟩ => ⟨S4x16x2048x64, .bf16⟩
  | .hbm, ⟨17, _⟩ => ⟨S4x2048x16x64, .bf16⟩
  | .hbm, ⟨18, _⟩ => ⟨S4x2048x1024, .bf16⟩
  | .hbm, ⟨19, _⟩ => ⟨S8192x1024, .bf16⟩
  | .hbm, ⟨20, _⟩ => ⟨S1x1024, .f32⟩
  | .hbm, ⟨21, _⟩ => ⟨S8192x1024, .f32⟩
  | .hbm, ⟨22, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S3072x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S1x1x1024x64, .bf16⟩
  | .local _ .vmem, ⟨10, _⟩ => ⟨S1x1x1024x64, .bf16⟩
  | .local _ .vmem, ⟨11, _⟩ => ⟨S1x1x2048x64, .bf16⟩
  | .local _ .vmem, ⟨12, _⟩ => ⟨S1x1x2048x64, .bf16⟩
  | .local _ .vmem, ⟨13, _⟩ => ⟨S1x1x2048x64, .bf16⟩
  | .local _ .vmem, ⟨14, _⟩ => ⟨S1x1x2048x64, .bf16⟩
  | .local _ .vmem, ⟨15, _⟩ => ⟨S1x1x1024x64, .bf16⟩
  | .local _ .vmem, ⟨16, _⟩ => ⟨S1x1x1024x64, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1x1024, .f32⟩
  | .local _ .vmem, ⟨21, _⟩ => ⟨S1024x1024, .f32⟩
  | .local _ .vmem, ⟨22, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![4, 16, 2], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1x1024x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  slices_S512x3072_o0_0_S512x1024 : S512x3072.Slices ![0, 0] S512x1024
  packedbf16_S512x1024_S512x1024_0_0 : (Rect.unit (s := S512x1024) ![0, 0] S512x1024.size inb_S512x1024_S512x1024_0_0).PackedRows (EltTy.packing .bf16)
  slices_S512x3072_o0_1024_S512x1024 : S512x3072.Slices ![0, 1024] S512x1024
  slices_S512x3072_o0_2048_S512x1024 : S512x3072.Slices ![0, 2048] S512x1024
  shapeCasts_S8192x1024_S4x2048x16x64 : S8192x1024.ShapeCasts S4x2048x16x64
  transposes_S4x2048x16x64_S4x16x2048x64_0_2_1_3 : S4x2048x16x64.Transposes [0, 2, 1, 3] S4x16x2048x64
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  shapeCasts_S1024x64_S1x1x1024x64 : S1024x64.ShapeCasts S1x1x1024x64
  packedbf16_S1x1x1024x64_S1x1x1024x64_0_0_0_0 : (Rect.unit (s := S1x1x1024x64) ![0, 0, 0, 0] S1x1x1024x64.size inb_S1x1x1024x64_S1x1x1024x64_0_0_0_0).PackedRows (EltTy.packing .bf16)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x1024_S4x2048x1024 : S8192x1024.ShapeCasts S4x2048x1024
  dot_S512x1024_S3072x1024_S512x3072_1_1_0_0_n_n_wf : DotDims.WF S512x1024 S3072x1024 S512x3072 [1] [1] [0] [0] [] []
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .bf16 = 32 ∨ (Rect.block (s := S8192x1024) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .bf16 = 32 ∨ (Rect.block (s := S8192x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .bf16 = 32 ∨ (Rect.block (s := S8192x1024) S512x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x1024x64.size a ≤ S4x16x2048x64.size a
  hwx1_0 : ∀ i : grid1.Coords, EltTy.bits .bf16 = 32 ∨ (Rect.block (s := S4x16x2048x64) S1x1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048x64.size a ≤ S4x16x2048x64.size a
  hwx1_1 : ∀ i : grid1.Coords, EltTy.bits .bf16 = 32 ∨ (Rect.block (s := S4x16x2048x64) S1x1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048x64.size a ≤ S4x16x2048x64.size a
  hwx1_2 : ∀ i : grid1.Coords, EltTy.bits .bf16 = 32 ∨ (Rect.block (s := S4x16x2048x64) S1x1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1024x64.size a ≤ S4x16x2048x64.size a
  hwx1_3 : ∀ i : grid1.Coords, EltTy.bits .bf16 = 32 ∨ (Rect.block (s := S4x16x2048x64) S1x1x1024x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .f32 = 32 ∨ (Rect.block (s := S8192x1024) S1024x1024.size (cc2_transform_3 i) (hinb2_3 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v2) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_2) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v5) S1x1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v13) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S1024x1024 : Shape := ⟨2, ![1024, 1024]⟩
abbrev S1024 : Shape := ⟨1, ![1024]⟩
abbrev S4x2048x3072 : Shape := ⟨3, ![4, 2048, 3072]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S1x1x1024 : Shape := ⟨3, ![1, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S4x2048x3072, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S4x2048x16x64, .f32⟩
  | .hbm, ⟨9, _⟩ => ⟨S4x16x2048x64, .f32⟩
  | .hbm, ⟨10, _⟩ => ⟨S4x2048x16x64, .f32⟩
  | .hbm, ⟨11, _⟩ => ⟨S4x16x2048x64, .f32⟩
  | .hbm, ⟨12, _⟩ => ⟨S4x2048x16x64, .f32⟩
  | .hbm, ⟨13, _⟩ => ⟨S4x16x2048x64, .f32⟩
  | .hbm, ⟨14, _⟩ => ⟨S4x16x2048x2048, .f32⟩
  | .hbm, ⟨15, _⟩ => ⟨S_, .f32⟩
  | .hbm, ⟨16, _⟩ => ⟨S4x16x2048x2048, .f32⟩
  | .hbm, ⟨17, _⟩ => ⟨S4x16x2048x2048, .f32⟩
  | .hbm, ⟨18, _⟩ => ⟨S_, .f32⟩
  | .hbm, ⟨19, _⟩ => ⟨S4x16x2048, .f32⟩
  | .hbm, ⟨20, _⟩ => ⟨S_, .f32⟩
  | .hbm, ⟨21, _⟩ => ⟨S4x16x2048, .f32⟩
  | .hbm, ⟨22, _⟩ => ⟨S4x16x2048, .f32⟩
  | .hbm, ⟨23, _⟩ => ⟨S4x16x2048x1, .f32⟩
  | .hbm, ⟨24, _⟩ => ⟨S4x16x2048x2048, .f32⟩
  | .hbm, ⟨25, _⟩ => ⟨S4x16x2048x2048, .f32⟩
  | .hbm, ⟨26, _⟩ => ⟨S4x16x2048x2048, .f32⟩
  | .hbm, ⟨27, _⟩ => ⟨S_, .f32⟩
  | .hbm, ⟨28, _⟩ => ⟨S4x16x2048, .f32⟩
  | .hbm, ⟨29, _⟩ => ⟨S4x16x2048x1, .f32⟩
  | .hbm, ⟨30, _⟩ => ⟨S4x16x2048x2048, .f32⟩
  | .hbm, ⟨31, _⟩ => ⟨S4x16x2048x2048, .f32⟩
  | .hbm, ⟨32, _⟩ => ⟨S4x16x2048x64, .f32⟩
  | .hbm, ⟨33, _⟩ => ⟨S4x2048x16x64, .f32⟩
  | .hbm, ⟨34, _⟩ => ⟨S4x2048x1024, .f32⟩
  | .hbm, ⟨35, _⟩ => ⟨S4x2048x1024, .f32⟩
  | .hbm, ⟨36, _⟩ => ⟨S1x1x1024, .f32⟩
  | .hbm, ⟨37, _⟩ => ⟨S4x2048x1024, .f32⟩
  | .hbm, ⟨38, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]

class Facts₀ : Prop where
  slices_S4x2048x3072_S4x2048x1024_0_0_0 : S4x2048x3072.Slices ![0, 0, 0] S4x2048x1024
  slices_S4x2048x3072_S4x2048x1024_0_0_1024 : S4x2048x3072.Slices ![0, 0, 1024] S4x2048x1024
  slices_S4x2048x3072_S4x2048x1024_0_0_2048 : S4x2048x3072.Slices ![0, 0, 2048] S4x2048x1024
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.Flat.lean ====
/-
  The kernel's three stages as whole-array functions in the layouts its regions work in.

  The first and third regions see the batch and position axes flattened: row `r` of an [8192, 1024] array is position
  `r % 2048` of batch `r / 2048`. A projection there is `P(r, c) = ∑ₑ X(r, e) · W(off + c, e)`; the output stage is
  `O(r, c) = ∑ₑ A(r, e) · Wo(c, e) + B(0, c)` with the bias as a one-row matrix.
-/
import Idealize.ShloMosaic.PureOps.Ideal
import Idealize.ShloMosaic.Lib.ValueIdx

noncomputable section

namespace Cert.Attn

open Idealize.ShloMosaic Idealize.ShloMosaic.ValueIdx

abbrev S2d : Shape := ⟨2, ![8192, 1024]⟩
abbrev SW3 : Shape := ⟨2, ![3072, 1024]⟩
abbrev SW1 : Shape := ⟨2, ![1024, 1024]⟩
abbrev SRow : Shape := ⟨2, ![1, 1024]⟩

/-- A projection on the flattened rows: `∑ₑ X(r, e) · W(off + c, e)`. -/
def flatProj (off : ℕ) (hoff : off + 1024 ≤ 3072) (X : S2d.Idx → EReal) (W : SW3.Idx → EReal) : S2d.Idx → EReal :=
  fun i => ∑ e : Fin 1024, X (ix2 (⟨(i 0).val, (i 0).isLt⟩ : Fin 8192) e)
    * W (ix2 (⟨off + (i 1).val, by have h : (i 1).val < 1024 := (i 1).isLt; omega⟩ : Fin 3072) e)

/-- The output stage on the flattened rows: `∑ₑ A(r, e) · Wo(c, e) + B(0, c)`. -/
def flatOut (A : S2d.Idx → EReal) (Wo : SW1.Idx → EReal) (B : SRow.Idx → EReal) : S2d.Idx → EReal :=
  fun i => (∑ e : Fin 1024, A (ix2 (⟨(i 0).val, (i 0).isLt⟩ : Fin 8192) e) * Wo (ix2 (⟨(i 1).val, (i 1).isLt⟩ : Fin 1024) e))
    + B (ix2 (0 : Fin 1) (⟨(i 1).val, (i 1).isLt⟩ : Fin 1024))

end Cert.Attn

end
-- ==== Proof.LibMatmulRowsByRowsOf.lean ====
/-
  A matrix product whose right operand is contracted on its LAST axis, into the zero accumulator, read at an entry.

  On the extended reals a `tpu.matmul` of an `[M, K]` left operand and an `[N, K]` right operand (`x · wᵀ`: the
  contraction on both operands' second axis, no batch axis), accumulated into the zero splat, is at entry `(p, q)`
  the inner product of row `p` of the left operand with row `q` of the right one, `∑ₖ l(p, k) · r(q, k)`: no rounding,
  no order of accumulation. The dimension record is kept abstract; what is asked of it is that it contracts one axis of
  extent `K` and reads its operands at `(p, k)` and `(q, k)` — four facts a concrete record gives by unfolding.
  Imports only the library.
-/
import Idealize.ShloMosaic.PureOps.Ideal.Laws
import Idealize.ShloMosaic.Lib.ValueIdx

namespace Idealize.ShloMosaic.MatmulRowsByRowsOf

open Idealize.ShloMosaic Idealize.ShloMosaic.ValueIdx

/-- `matmul D prec l r 0` at `(p, q)` is `∑ k, l (p, k) * r (q, k)`. -/
theorem matmul_zero_apply {M K N : ℕ} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (j 1).val)
    (hr1 : ∀ (j : (⟨2, ![M, N]⟩ : Shape).Idx) (q : D.contr.Idx), (D.rhsIdx j q 1).val = (q ⟨0, by omega⟩).val)
    (prec : Option ContractPrecision) (l : FVec Ideal ⟨2, ![M, K]⟩ φ₁) (r : FVec Ideal ⟨2, ![N, K]⟩ φ₂)
    (p : Fin M) (q : Fin N) :
    matmul D prec l r (constant (F := Ideal) ⟨2, ![M, N]⟩ .f32 0x00000000#32) (ix2 p q)
      = ∑ k : Fin K, l (ix2 p k) * r (ix2 q k) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end Idealize.ShloMosaic.MatmulRowsByRowsOf
-- ==== Proof.ProjBody.lean ====
/-
  The two projection kernels' bodies, read at an entry, on the extended reals.

  The joint projection forms ONE product `x · wᵀ` of a `[512, 1024]` tile of rows with the `[3072, 1024]` joint weight into
  the zero accumulator, and stores its three column blocks `[0, 1024)`, `[1024, 2048)`, `[2048, 3072)` as the query, key
  and value tiles: entry `(p, q)` of block `b` is the inner product of row `p` of the tile with row `1024 · b + q` of the
  weight. The narrowing format changes are the identity on the extended reals and the shape casts are casts of a shape to
  itself. The output projection forms `a · wᵀ` of a `[1024, 1024]` tile with the `[1024, 1024]` weight and adds the bias
  row, broadcast down the rows: entry `(p, q)` is the inner product of row `p` of the tile with row `q` of the weight, plus
  entry `q` of the bias.
-/
import proofs.«122774_j65481071402676_2_alg».proof.Proof.Gen.KernelIdeal.Skeleton
import proofs.«122774_j65481071402676_2_alg».proof.Proof.LibMatmulRowsByRowsOf
import Idealize.ShloMosaic.Lib.ValueLayout

namespace Cert.Attn.Body

open Cert.KernelIdeal Cert.KernelIdeal.Gen Idealize.ShloMosaic Idealize.ShloMosaic.ValueIdx
open Idealize.ShloMosaic.MatmulRowsByRowsOf

/-! ## Where the two products read their operands

Both dimension records contract the second axis of both operands and carry no batch axis: the left operand is read at
`(row of the entry, k)`, the right one at `(column of the entry, k)`. -/

theorem qkv_lhs0 (i : S512x3072.Idx) (k : dot_S512x1024_S3072x1024_S512x3072_1_1_0_0_n_n.contr.Idx) :
    (dot_S512x1024_S3072x1024_S512x3072_1_1_0_0_n_n.lhsIdx i k 0).val = (i 0).val := by
  unfold DotDims.lhsIdx
  rw [dif_neg (show ¬(0 : Fin S512x1024.rank) ∈ dot_S512x1024_S3072x1024_S512x3072_1_1_0_0_n_n.lhsBatch by decide),
    dif_pos (show (0 : Fin S512x1024.rank) ∈ dot_S512x1024_S3072x1024_S512x3072_1_1_0_0_n_n.lhsNonContracting by decide)]
  rfl

theorem qkv_lhs1 (i : S512x3072.Idx) (k : dot_S512x1024_S3072x1024_S512x3072_1_1_0_0_n_n.contr.Idx) :
    (dot_S512x1024_S3072x1024_S512x3072_1_1_0_0_n_n.lhsIdx i k 1).val = (k ⟨0, by decide⟩).val :=
  dot_S512x1024_S3072x1024_S512x3072_1_1_0_0_n_n.lhsIdx_val_of_single rfl i k

theorem qkv_rhs0 (i : S512x3072.Idx) (k : dot_S512x1024_S3072x1024_S512x3072_1_1_0_0_n_n.contr.Idx) :
    (dot_S512x1024_S3072x1024_S512x3072_1_1_0_0_n_n.rhsIdx i k 0).val = (i 1).val := by
  unfold DotDims.rhsIdx
  rw [dif_neg (show ¬(0 : Fin S3072x1024.rank) ∈ dot_S512x1024_S3072x1024_S512x3072_1_1_0_0_n_n.rhsBatch by decide),
    dif_pos (show (0 : Fin S3072x1024.rank) ∈ dot_S512x1024_S3072x1024_S512x3072_1_1_0_0_n_n.rhsNonContracting by decide)]
  rfl

theorem qkv_rhs1 (i : S512x3072.Idx) (k : dot_S512x1024_S3072x1024_S512x3072_1_1_0_0_n_n.contr.Idx) :
    (dot_S512x1024_S3072x1024_S512x3072_1_1_0_0_n_n.rhsIdx i k 1).val = (k ⟨0, by decide⟩).val :=
  dot_S512x1024_S3072x1024_S512x3072_1_1_0_0_n_n.rhsIdx_val_of_single rfl i k

theorem out_lhs0 (i : S1024x1024.Idx) (k : dot_S1024x1024_S1024x1024_S1024x1024_1_1_0_0_n_n.contr.Idx) :
    (dot_S1024x1024_S1024x1024_S1024x1024_1_1_0_0_n_n.lhsIdx i k 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

theorem out_lhs1 (i : S1024x1024.Idx) (k : dot_S1024x1024_S1024x1024_S1024x1024_1_1_0_0_n_n.contr.Idx) :
    (dot_S1024x1024_S1024x1024_S1024x1024_1_1_0_0_n_n.lhsIdx i k 1).val = (k ⟨0, by decide⟩).val :=
  dot_S1024x1024_S1024x1024_S1024x1024_1_1_0_0_n_n.lhsIdx_val_of_single rfl i k

theorem out_rhs0 (i : S1024x1024.Idx) (k : dot_S1024x1024_S1024x1024_S1024x1024_1_1_0_0_n_n.contr.Idx) :
    (dot_S1024x1024_S1024x1024_S1024x1024_1_1_0_0_n_n.rhsIdx i k 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

theorem out_rhs1 (i : S1024x1024.Idx) (k : dot_S1024x1024_S1024x1024_S1024x1024_1_1_0_0_n_n.contr.Idx) :
    (dot_S1024x1024_S1024x1024_S1024x1024_1_1_0_0_n_n.rhsIdx i k 1).val = (k ⟨0, by decide⟩).val :=
  dot_S1024x1024_S1024x1024_S1024x1024_1_1_0_0_n_n.rhsIdx_val_of_single rfl i k

/-! ## The joint projection -/

/-- The joint product at `(p, r)`: row `p` of the tile against row `r` of the joint weight. -/
theorem qkv_product (v0 : Vec Ideal S512x1024 .f32) (v3 : Vec Ideal S3072x1024 .bf16) (p : Fin 512) (r : Fin 3072) :
    k0_pay1 (F := Ideal) v0 v3 (ix2 p r) = ∑ e : Fin 1024, v0 (ix2 p e) * v3 (ix2 r e) := by
  refine Eq.trans (show k0_pay1 (F := Ideal) v0 v3 (ix2 p r)
      = matmul dot_S512x1024_S3072x1024_S512x3072_1_1_0_0_n_n none
          (truncf .bf16 (shapeCast S512x1024 v0 shapeCasts_S512x1024_S512x1024) bitsLt_bf16_f32)
          (shapeCast S3072x1024 v3 shapeCasts_S3072x1024_S3072x1024)
          (constant (F := Ideal) S512x3072 .f32 0x00000000#32) (ix2 p r) from rfl) ?_
  refine (matmul_zero_apply dot_S512x1024_S3072x1024_S512x3072_1_1_0_0_n_n rfl rfl
    qkv_lhs0 qkv_lhs1 qkv_rhs0 qkv_rhs1 none _ _ p r).trans ?_
  refine Finset.sum_congr rfl fun e _ => ?_
  rw [shapeCast_self, shapeCast_self]
  rfl

/-- The query tile: columns `0 + q` of the joint product. -/
theorem qkv_payload2 (v0 : Vec Ideal S512x1024 .f32) (v3 : Vec Ideal S3072x1024 .bf16) (p : Fin 512) (q : Fin 1024) :
    k0_pay2 (F := Ideal) v0 v3 (ix2 p q)
      = ∑ e : Fin 1024, v0 (ix2 p e) * v3 (ix2 (⟨0 + q.val, by omega⟩ : Fin 3072) e) := by
  refine Eq.trans (show k0_pay2 (F := Ideal) v0 v3 (ix2 p q)
      = extractStridedSlice S512x1024 ![0, 0] (k0_pay1 (F := Ideal) v0 v3) slices_S512x3072_o0_0_S512x1024 (ix2 p q)
      from rfl) ?_
  refine (slice2_axis1_apply 0 (k0_pay1 (F := Ideal) v0 v3) slices_S512x3072_o0_0_S512x1024 p q
    (⟨0 + q.val, by omega⟩ : Fin 3072) rfl).trans ?_
  exact qkv_product v0 v3 p _

/-- The key tile: columns `1024 + q` of the joint product. -/
theorem qkv_payload3 (v0 : Vec Ideal S512x1024 .f32) (v3 : Vec Ideal S3072x1024 .bf16) (p : Fin 512) (q : Fin 1024) :
    k0_pay3 (F := Ideal) v0 v3 (ix2 p q)
      = ∑ e : Fin 1024, v0 (ix2 p e) * v3 (ix2 (⟨1024 + q.val, by omega⟩ : Fin 3072) e) := by
  refine Eq.trans (show k0_pay3 (F := Ideal) v0 v3 (ix2 p q)
      = extractStridedSlice S512x1024 ![0, 1024] (k0_pay1 (F := Ideal) v0 v3) slices_S512x3072_o0_1024_S512x1024 (ix2 p q)
      from rfl) ?_
  refine (slice2_axis1_apply 1024 (k0_pay1 (F := Ideal) v0 v3) slices_S512x3072_o0_1024_S512x1024 p q
    (⟨1024 + q.val, by omega⟩ : Fin 3072) rfl).trans ?_
  exact qkv_product v0 v3 p _

/-- The value tile: columns `2048 + q` of the joint product. -/
theorem qkv_payload4 (v0 : Vec Ideal S512x1024 .f32) (v3 : Vec Ideal S3072x1024 .bf16) (p : Fin 512) (q : Fin 1024) :
    k0_pay4 (F := Ideal) v0 v3 (ix2 p q)
      = ∑ e : Fin 1024, v0 (ix2 p e) * v3 (ix2 (⟨2048 + q.val, by omega⟩ : Fin 3072) e) := by
  refine Eq.trans (show k0_pay4 (F := Ideal) v0 v3 (ix2 p q)
      = extractStridedSlice S512x1024 ![0, 2048] (k0_pay1 (F := Ideal) v0 v3) slices_S512x3072_o0_2048_S512x1024 (ix2 p q)
      from rfl) ?_
  refine (slice2_axis1_apply 2048 (k0_pay1 (F := Ideal) v0 v3) slices_S512x3072_o0_2048_S512x1024 p q
    (⟨2048 + q.val, by omega⟩ : Fin 3072) rfl).trans ?_
  exact qkv_product v0 v3 p _

/-! ## The output projection -/

/-- The output tile at `(p, q)`: row `p` of the attention tile against row `q` of the weight, plus the bias at `q`. -/
theorem out_payload (v0 v2 : Vec Ideal S1024x1024 .bf16) (v5 : Vec Ideal S1x1024 .f32) (p q : Fin 1024) :
    k2_pay1 (F := Ideal) v0 v2 v5 (ix2 p q)
      = (∑ e : Fin 1024, v0 (ix2 p e) * v2 (ix2 q e)) + v5 (ix2 (0 : Fin 1) q) := by
  have hm : matmul (φ₁ := .bf16) (φ₂ := .bf16) dot_S1024x1024_S1024x1024_S1024x1024_1_1_0_0_n_n none
      (shapeCast S1024x1024 v0 shapeCasts_S1024x1024_S1024x1024)
      (shapeCast S1024x1024 v2 shapeCasts_S1024x1024_S1024x1024)
      (constant (F := Ideal) S1024x1024 .f32 0x00000000#32) (ix2 p q)
      = ∑ e : Fin 1024, v0 (ix2 p e) * v2 (ix2 q e) := by
    refine (matmul_zero_apply dot_S1024x1024_S1024x1024_S1024x1024_1_1_0_0_n_n rfl rfl
      out_lhs0 out_lhs1 out_rhs0 out_rhs1 none _ _ p q).trans ?_
    refine Finset.sum_congr rfl fun e _ => ?_
    rw [shapeCast_self, shapeCast_self]
  have hb : broadcastTo S1024x1024 (shapeCast S1x1024 v5 shapeCasts_S1x1024_S1x1024) broadcasts_S1x1024_S1024x1024 (ix2 p q)
      = v5 (ix2 (0 : Fin 1) q) := by
    rw [shapeCast_self]
    exact broadcastTo_1b_ab_apply v5 broadcasts_S1x1024_S1024x1024 p q
  refine Eq.trans (show k2_pay1 (F := Ideal) v0 v2 v5 (ix2 p q)
      = matmul (φ₁ := .bf16) (φ₂ := .bf16) dot_S1024x1024_S1024x1024_S1024x1024_1_1_0_0_n_n none
          (shapeCast S1024x1024 v0 shapeCasts_S1024x1024_S1024x1024)
          (shapeCast S1024x1024 v2 shapeCasts_S1024x1024_S1024x1024)
          (constant (F := Ideal) S1024x1024 .f32 0x00000000#32) (ix2 p q)
        + broadcastTo S1024x1024 (shapeCast S1x1024 v5 shapeCasts_S1x1024_S1x1024) broadcasts_S1x1024_S1024x1024 (ix2 p q)
      from rfl) ?_
  rw [hm, hb]

end Cert.Attn.Body
-- ==== Proof.Region0.lean ====
/-
  The first region (the joint projection): each of its three output arrays, after the region, is one whole-array function
  of the two arrays the region finds — the flattened input X [8192, 1024] and the weight W [3072, 1024].

  The grid has 16 points; point `t` stages rows 512·t … 512·t + 511 of X and all of W, computes the [512, 3072] product
  X_t · Wᵀ once and writes its three column thirds to the same rows of the three outputs. So output `j` ends as
  `(r, c) ↦ ∑ₑ X(r, e) · W(1024·j + c, e)`: what a point writes is that function read through the point's block, and
  the sixteen blocks cover the rows.
-/
import proofs.«122774_j65481071402676_2_alg».proof.Proof.Gen.KernelIdeal.Frame
import proofs.«122774_j65481071402676_2_alg».proof.Proof.Flat
import proofs.«122774_j65481071402676_2_alg».proof.Proof.ProjBody
import Idealize.ShloMosaic.Lib.Pipeline.Value

set_option maxRecDepth 16384

noncomputable section

namespace Cert.Attn.R0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- One entry of a block the body computes, against the whole-array projection: the body's value at `y` is the
    projection at the array index `i` that `y` sits at, when the staged input block is rows `r0 …` of `X` and the staged
    weight is `W`. -/
theorem point_proj (off : ℕ) (hoff : off + 1024 ≤ 3072) (x0 : Vec Ideal S512x1024 .f32) (x1 : Vec Ideal S3072x1024 .bf16)
    (pay : FVec Ideal S512x1024 .bf16)
    (hpay : ∀ (p : Fin 512) (q : Fin 1024), pay (ix2 p q) = ∑ e : Fin 1024, x0 (ix2 p e) * x1 (ix2 (⟨off + q.val, by omega⟩ : Fin 3072) e))
    (X : S2d.Idx → EReal) (W : SW3.Idx → EReal) (r0 : ℕ) (hr0 : r0 + 512 ≤ 8192)
    (hx0 : ∀ (p : Fin 512) (e : Fin 1024), x0 (ix2 p e) = X (ix2 (⟨r0 + p.val, by omega⟩ : Fin 8192) e))
    (hx1 : ∀ (r : Fin 3072) (e : Fin 1024), x1 (ix2 r e) = W (ix2 r e))
    (y : S512x1024.Idx) (i : S8192x1024.Idx) (hi0 : (i 0).val = r0 + (y 0).val) (hi1 : (i 1).val = (y 1).val) :
    pay y = flatProj off hoff X W i := by
  have hy0 : (y 0).val < 512 := (y 0).isLt
  have hy1 : (y 1).val < 1024 := (y 1).isLt
  have ey : y = ix2 (⟨(y 0).val, hy0⟩ : Fin 512) (⟨(y 1).val, hy1⟩ : Fin 1024) :=
    funext fun a => by match a with | ⟨0, _⟩ => rfl | ⟨1, _⟩ => rfl
  rw [ey, hpay]
  unfold flatProj
  refine Finset.sum_congr rfl fun e _ => ?_
  rw [hx0, hx1]
  refine congrArg₂ (· * ·) (congrArg X (funext fun a => Fin.ext ?_)) (congrArg W (funext fun a => Fin.ext ?_))
  · match a with
    | ⟨0, _⟩ => exact hi0.symm
    | ⟨1, _⟩ => rfl
  · match a with
    | ⟨0, _⟩ => show off + (y 1).val = off + (i 1).val; omega
    | ⟨1, _⟩ => rfl

/-- The printed index maps, decided over the grid: the input block and every output block of point `t` are block row
    `t`, and the weight's one block is the whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## Output window 2: rows 512·t … 512·t + 511 of the projection at column offset 0 -/

/-- What point `t` writes back is block `t` of the projection of the arrays the region finds. -/
theorem flushed2_eq (c : Dev nD) (t : Fin cfg0.N) :
    (dat0 V c).flushed 2 t = ((cfg0.win 2).blk t).view.read (Elt Ideal) (flatProj 0 (by omega) (V c main_v2) (V c main_v0)) := by
  show (cfg0.win 2).cut (grid0.coords t) ((dat0 V c).after 2 t) = _
  rw [after0_2]
  unfold out0_2
  rw [View.canon_unit_zero hz]
  simp only [View.ld_unit_zero (S := S512x1024) hz, View.ld_unit_zero (S := S3072x1024) hz]
  obtain ⟨e00, e01, e10, e11, e20, e21, e30, e31, e40, e41⟩ := idx_facts t
  have ht : t.val < grid0.N := t.isLt
  rw [N_0] at ht
  funext j
  exact point_proj 0 (by omega) (iblk0 V c 0 t) (iblk0 V c 1 t) (k0_pay2 (iblk0 V c 0 t) (iblk0 V c 1 t))
    (fun p q => Body.qkv_payload2 (iblk0 V c 0 t) (iblk0 V c 1 t) p q)
    (V c main_v2) (V c main_v0) (t.val * 512) (by omega)
    (fun p e => by
      show V c main_v2 (((cfg0.win 0).blk t).view.emb (ix2 p e)) = _
      refine congrArg (V c main_v2) (funext fun a => Fin.ext ?_)
      match a with
      | ⟨0, _⟩ => show win0_0.index t (0 : Fin 2) * 512 + 1 * p.val = t.val * 512 + p.val; omega
      | ⟨1, _⟩ => show win0_0.index t (1 : Fin 2) * 1024 + 1 * e.val = e.val; omega)
    (fun r e => by
      show V c main_v0 (((cfg0.win 1).blk t).view.emb (ix2 r e)) = _
      refine congrArg (V c main_v0) (funext fun a => Fin.ext ?_)
      match a with
      | ⟨0, _⟩ => show win0_1.index t (0 : Fin 2) * 3072 + 1 * r.val = r.val; omega
      | ⟨1, _⟩ => show win0_1.index t (1 : Fin 2) * 1024 + 1 * e.val = e.val; omega)
    ((cfg0.win 2).xinj (grid0.coords t) j) (((cfg0.win 2).blk t).view.emb j)
    (by show win0_2.index t (0 : Fin 2) * 512 + 1 * (j 0).val = t.val * 512 + (j 0).val; omega)
    (by show win0_2.index t (1 : Fin 2) * 1024 + 1 * (j 1).val = (j 1).val; omega)

/-- An index of the array is in point `t`'s block iff each coordinate is in the block's range on its axis. -/
theorem mem_blk2 (t : Fin cfg0.N) (i : S8192x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v3_0).slice (win0_2.rect t)).set ↔ _
  rw [View.set_slice_whole, Rect.mem_set_unit]
  exact Iff.rfl

/-- Row `r` lies in the block of point `r / 512`: the blocks cover the array. -/
theorem cover2 (i : S8192x1024.Idx) : ∃ t : Fin cfg0.N, (cfg0.win 2).flush t = true ∧ i ∈ ((cfg0.win 2).blk t).view.set := by
  have hi0 : (i 0).val < 8192 := (i 0).isLt
  have hi1 : (i 1).val < 1024 := (i 1).isLt
  have hN : grid0.N = 16 := N_0
  obtain ⟨t, ht⟩ : ∃ t : Fin cfg0.N, t.val = (i 0).val / 512 := ⟨⟨(i 0).val / 512, by show (i 0).val / 512 < grid0.N; rw [hN]; omega⟩, rfl⟩
  refine ⟨t, flush0_2 t, ?_⟩
  rw [mem_blk2]
  obtain ⟨e00, e01, e10, e11, e20, e21, e30, e31, e40, e41⟩ := idx_facts t
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The array after the region: the projection at column offset 0 of the arrays the region finds. -/
theorem final2 (c : Dev nD) : (dat0 V c).arrAt 2 cfg0.N = flatProj 0 (by omega) (V c main_v2) (V c main_v0) :=
  (dat0 V c).arrAt_eq_of_cover 2 _ (fun t _ => flushed2_eq V c t) cover2

/-! ## Output window 3: rows 512·t … 512·t + 511 of the projection at column offset 1024 -/

/-- What point `t` writes back is block `t` of the projection of the arrays the region finds. -/
theorem flushed3_eq (c : Dev nD) (t : Fin cfg0.N) :
    (dat0 V c).flushed 3 t = ((cfg0.win 3).blk t).view.read (Elt Ideal) (flatProj 1024 (by omega) (V c main_v2) (V c main_v0)) := by
  show (cfg0.win 3).cut (grid0.coords t) ((dat0 V c).after 3 t) = _
  rw [after0_3]
  unfold out0_3
  rw [View.canon_unit_zero hz]
  simp only [View.ld_unit_zero (S := S512x1024) hz, View.ld_unit_zero (S := S3072x1024) hz]
  obtain ⟨e00, e01, e10, e11, e20, e21, e30, e31, e40, e41⟩ := idx_facts t
  have ht : t.val < grid0.N := t.isLt
  rw [N_0] at ht
  funext j
  exact point_proj 1024 (by omega) (iblk0 V c 0 t) (iblk0 V c 1 t) (k0_pay3 (iblk0 V c 0 t) (iblk0 V c 1 t))
    (fun p q => Body.qkv_payload3 (iblk0 V c 0 t) (iblk0 V c 1 t) p q)
    (V c main_v2) (V c main_v0) (t.val * 512) (by omega)
    (fun p e => by
      show V c main_v2 (((cfg0.win 0).blk t).view.emb (ix2 p e)) = _
      refine congrArg (V c main_v2) (funext fun a => Fin.ext ?_)
      match a with
      | ⟨0, _⟩ => show win0_0.index t (0 : Fin 2) * 512 + 1 * p.val = t.val * 512 + p.val; omega
      | ⟨1, _⟩ => show win0_0.index t (1 : Fin 2) * 1024 + 1 * e.val = e.val; omega)
    (fun r e => by
      show V c main_v0 (((cfg0.win 1).blk t).view.emb (ix2 r e)) = _
      refine congrArg (V c main_v0) (funext fun a => Fin.ext ?_)
      match a with
      | ⟨0, _⟩ => show win0_1.index t (0 : Fin 2) * 3072 + 1 * r.val = r.val; omega
      | ⟨1, _⟩ => show win0_1.index t (1 : Fin 2) * 1024 + 1 * e.val = e.val; omega)
    ((cfg0.win 3).xinj (grid0.coords t) j) (((cfg0.win 3).blk t).view.emb j)
    (by show win0_3.index t (0 : Fin 2) * 512 + 1 * (j 0).val = t.val * 512 + (j 0).val; omega)
    (by show win0_3.index t (1 : Fin 2) * 1024 + 1 * (j 1).val = (j 1).val; omega)

/-- An index of the array is in point `t`'s block iff each coordinate is in the block's range on its axis. -/
theorem mem_blk3 (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v3_1).slice (win0_3.rect t)).set ↔ _
  rw [View.set_slice_whole, Rect.mem_set_unit]
  exact Iff.rfl

/-- Row `r` lies in the block of point `r / 512`: the blocks cover the array. -/
theorem cover3 (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  have hN : grid0.N = 16 := N_0
  obtain ⟨t, ht⟩ : ∃ t : Fin cfg0.N, t.val = (i 0).val / 512 := ⟨⟨(i 0).val / 512, by show (i 0).val / 512 < grid0.N; rw [hN]; omega⟩, rfl⟩
  refine ⟨t, flush0_3 t, ?_⟩
  rw [mem_blk3]
  obtain ⟨e00, e01, e10, e11, e20, e21, e30, e31, e40, e41⟩ := idx_facts t
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- The array after the region: the projection at column offset 1024 of the arrays the region finds. -/
theorem final3 (c : Dev nD) : (dat0 V c).arrAt 3 cfg0.N = flatProj 1024 (by omega) (V c main_v2) (V c main_v0) :=
  (dat0 V c).arrAt_eq_of_cover 3 _ (fun t _ => flushed3_eq V c t) cover3

/-! ## Output window 4: rows 512·t … 512·t + 511 of the projection at column offset 2048 -/

/-- What point `t` writes back is block `t` of the projection of the arrays the region finds. -/
theorem flushed4_eq (c : Dev nD) (t : Fin cfg0.N) :
    (dat0 V c).flushed 4 t = ((cfg0.win 4).blk t).view.read (Elt Ideal) (flatProj 2048 (by omega) (V c main_v2) (V c main_v0)) := by
  show (cfg0.win 4).cut (grid0.coords t) ((dat0 V c).after 4 t) = _
  rw [after0_4]
  unfold out0_4
  rw [View.canon_unit_zero hz]
  simp only [View.ld_unit_zero (S := S512x1024) hz, View.ld_unit_zero (S := S3072x1024) hz]
  obtain ⟨e00, e01, e10, e11, e20, e21, e30, e31, e40, e41⟩ := idx_facts t
  have ht : t.val < grid0.N := t.isLt
  rw [N_0] at ht
  funext j
  exact point_proj 2048 (by omega) (iblk0 V c 0 t) (iblk0 V c 1 t) (k0_pay4 (iblk0 V c 0 t) (iblk0 V c 1 t))
    (fun p q => Body.qkv_payload4 (iblk0 V c 0 t) (iblk0 V c 1 t) p q)
    (V c main_v2) (V c main_v0) (t.val * 512) (by omega)
    (fun p e => by
      show V c main_v2 (((cfg0.win 0).blk t).view.emb (ix2 p e)) = _
      refine congrArg (V c main_v2) (funext fun a => Fin.ext ?_)
      match a with
      | ⟨0, _⟩ => show win0_0.index t (0 : Fin 2) * 512 + 1 * p.val = t.val * 512 + p.val; omega
      | ⟨1, _⟩ => show win0_0.index t (1 : Fin 2) * 1024 + 1 * e.val = e.val; omega)
    (fun r e => by
      show V c main_v0 (((cfg0.win 1).blk t).view.emb (ix2 r e)) = _
      refine congrArg (V c main_v0) (funext fun a => Fin.ext ?_)
      match a with
      | ⟨0, _⟩ => show win0_1.index t (0 : Fin 2) * 3072 + 1 * r.val = r.val; omega
      | ⟨1, _⟩ => show win0_1.index t (1 : Fin 2) * 1024 + 1 * e.val = e.val; omega)
    ((cfg0.win 4).xinj (grid0.coords t) j) (((cfg0.win 4).blk t).view.emb j)
    (by show win0_4.index t (0 : Fin 2) * 512 + 1 * (j 0).val = t.val * 512 + (j 0).val; omega)
    (by show win0_4.index t (1 : Fin 2) * 1024 + 1 * (j 1).val = (j 1).val; omega)

/-- An index of the array is in point `t`'s block iff each coordinate is in the block's range on its axis. -/
theorem mem_blk4 (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v3_2).slice (win0_4.rect t)).set ↔ _
  rw [View.set_slice_whole, Rect.mem_set_unit]
  exact Iff.rfl

/-- Row `r` lies in the block of point `r / 512`: the blocks cover the array. -/
theorem cover4 (i : S8192x1024.Idx) : ∃ t : Fin cfg0.N, (cfg0.win 4).flush t = true ∧ i ∈ ((cfg0.win 4).blk t).view.set := by
  have hi0 : (i 0).val < 8192 := (i 0).isLt
  have hi1 : (i 1).val < 1024 := (i 1).isLt
  have hN : grid0.N = 16 := N_0
  obtain ⟨t, ht⟩ : ∃ t : Fin cfg0.N, t.val = (i 0).val / 512 := ⟨⟨(i 0).val / 512, by show (i 0).val / 512 < grid0.N; rw [hN]; omega⟩, rfl⟩
  refine ⟨t, flush0_4 t, ?_⟩
  rw [mem_blk4]
  obtain ⟨e00, e01, e10, e11, e20, e21, e30, e31, e40, e41⟩ := idx_facts t
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- The array after the region: the projection at column offset 2048 of the arrays the region finds. -/
theorem final4 (c : Dev nD) : (dat0 V c).arrAt 4 cfg0.N = flatProj 2048 (by omega) (V c main_v2) (V c main_v0) :=
  (dat0 V c).arrAt_eq_of_cover 4 _ (fun t _ => flushed4_eq V c t) cover4

end Cert.Attn.R0

end
-- ==== Proof.Spec.lean ====
/-
  Multi-head softmax self-attention with its input and output projections, as functions of the argument arrays on the
  extended reals, entry by entry, in the two arrangements the two programs compute.

  The input `x` is [4, 2048, 1024] (batch, position, feature), the joint projection weight `w` is [3072, 1024] (its rows
  0..1023 project the queries, 1024..2047 the keys, 2048..3071 the values), the output weight is [1024, 1024] and the bias
  [1024]. A projection in head layout is `P(b, h, n, d) = ∑ₑ x(b, n, e) · w(off + 64·h + d, e)`: head `h` owns features
  64·h .. 64·h + 63. For one query row, keys `K` and values `V` (2048 rows of 64), the scores are
  `s m = (∑_d q d · K m d) · 1/8`, the weights `exp (s m − max s)` (the maximum folded from −∞), the normaliser their sum.
  One arrangement divides the weighted sum of the values by the normaliser (`rowAfter`), the other divides every weight
  first (`rowBefore`). The heads are laid side by side again (feature `e` is head `e / 64`, lane `e % 64`) and projected:
  `out(b, n, c) = ∑ₑ o(b, e/64, n, e%64) · wo(c, e) + bias c`.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

abbrev SX : Shape := ⟨3, ![4, 2048, 1024]⟩
abbrev SWq : Shape := ⟨2, ![3072, 1024]⟩
abbrev SWo : Shape := ⟨2, ![1024, 1024]⟩
abbrev SBias : Shape := ⟨1, ![1024]⟩
abbrev SHeads : Shape := ⟨4, ![4, 16, 2048, 64]⟩

/-- The scale 1/8, as the f32 word both programs print. -/
abbrev scale : EReal := Ideal.ofBits .f32 0x3E000000#32
/-- −∞, as the f32 word both programs start their maximum from. -/
abbrev negInf : EReal := Ideal.ofBits .f32 0xFF800000#32

/-! ## One query row against 2048 keys and values -/

def score (q : Fin 64 → EReal) (K : Fin 2048 → Fin 64 → EReal) (m : Fin 2048) : EReal := (∑ d : Fin 64, q d * K m d) * scale
def rowMax (q : Fin 64 → EReal) (K : Fin 2048 → Fin 64 → EReal) : EReal := (Finset.univ : Finset (Fin 2048)).fold max negInf (score q K)
def weight (q : Fin 64 → EReal) (K : Fin 2048 → Fin 64 → EReal) (m : Fin 2048) : EReal := Ideal.exp (score q K m - rowMax q K)
def norm (q : Fin 64 → EReal) (K : Fin 2048 → Fin 64 → EReal) : EReal := ∑ m : Fin 2048, weight q K m
/-- The weighted sum of the values divided by the normaliser. -/
def rowAfter (q : Fin 64 → EReal) (K V : Fin 2048 → Fin 64 → EReal) (d : Fin 64) : EReal :=
  Ideal.div (∑ m : Fin 2048, weight q K m * V m d) (norm q K)
/-- Every weight divided by the normaliser, then the weighted sum of the values. -/
def rowBefore (q : Fin 64 → EReal) (K V : Fin 2048 → Fin 64 → EReal) (d : Fin 64) : EReal :=
  ∑ m : Fin 2048, Ideal.div (weight q K m) (norm q K) * V m d

/-! ## The arrays -/

/-- A projection in head layout, at coordinates. -/
def projAt (off : ℕ) (hoff : off + 1024 ≤ 3072) (x : SX.Idx → EReal) (w : SWq.Idx → EReal)
    (b : Fin 4) (h : Fin 16) (n : Fin 2048) (d : Fin 64) : EReal :=
  ∑ e : Fin 1024, x (ix3 b n e) * w (ix2 (⟨off + (64 * h.val + d.val), by omega⟩ : Fin 3072) e)

def proj (off : ℕ) (hoff : off + 1024 ≤ 3072) (x : SX.Idx → EReal) (w : SWq.Idx → EReal) : SHeads.Idx → EReal :=
  fun i => projAt off hoff x w (i 0) (i 1) (i 2) (i 3)

/-- Row `n` of head `(b, h)` of an array in head layout. -/
def rowOf (A : SHeads.Idx → EReal) (b : Fin 4) (h : Fin 16) (n : Fin 2048) : Fin 64 → EReal := fun d => A (ix4 b h n d)
/-- All rows of head `(b, h)`. -/
def rowsOf (A : SHeads.Idx → EReal) (b : Fin 4) (h : Fin 16) : Fin 2048 → Fin 64 → EReal := fun m d => A (ix4 b h m d)

def attnAfter (Q K V : SHeads.Idx → EReal) : SHeads.Idx → EReal :=
  fun i => rowAfter (rowOf Q (i 0) (i 1) (i 2)) (rowsOf K (i 0) (i 1)) (rowsOf V (i 0) (i 1)) (i 3)
def attnBefore (Q K V : SHeads.Idx → EReal) : SHeads.Idx → EReal :=
  fun i => rowBefore (rowOf Q (i 0) (i 1) (i 2)) (rowsOf K (i 0) (i 1)) (rowsOf V (i 0) (i 1)) (i 3)

/-- The output projection with its bias, at coordinates. -/
def outAt (o : SHeads.Idx → EReal) (wo : SWo.Idx → EReal) (bias : SBias.Idx → EReal) (b : Fin 4) (n : Fin 2048) (c : Fin 1024) : EReal :=
  (∑ e : Fin 1024, o (ix4 b (⟨e.val / 64, by omega⟩ : Fin 16) n (⟨e.val % 64, by omega⟩ : Fin 64)) * wo (ix2 c e)) + bias (ix1 c)

def out (o : SHeads.Idx → EReal) (wo : SWo.Idx → EReal) (bias : SBias.Idx → EReal) : SX.Idx → EReal :=
  fun i => outAt o wo bias (i 0) (i 1) (i 2)

/-- The kernel's arrangement of the whole computation. -/
def kernelFn (x : SX.Idx → EReal) (w : SWq.Idx → EReal) (wo : SWo.Idx → EReal) (bias : SBias.Idx → EReal) : SX.Idx → EReal :=
  out (attnAfter (proj 0 (by omega) x w) (proj 1024 (by omega) x w) (proj 2048 (by omega) x w)) wo bias
/-- The reference's arrangement. -/
def refFn (x : SX.Idx → EReal) (w : SWq.Idx → EReal) (wo : SWo.Idx → EReal) (bias : SBias.Idx → EReal) : SX.Idx → EReal :=
  out (attnBefore (proj 0 (by omega) x w) (proj 1024 (by omega) x w) (proj 2048 (by omega) x w)) wo bias

end Cert.Attn

end
-- ==== Proof.LibMatmulRowsByCols.lean ====
/-
  A matrix product into the zero accumulator, read at an entry.

  On the extended reals a `tpu.matmul` of an `[M, K]` left operand and a `[K, N]` right operand (the contraction on the
  left's second axis and the right's first, no batch axis), accumulated into the zero splat, is at entry `(p, q)` the
  plain sum `∑ₖ l(p, k) · r(k, q)`: no rounding, no order of accumulation. The dimension record is kept abstract; what
  is asked of it is that it contracts one axis of extent `K` and reads its operands at `(p, k)` and `(k, q)`, four
  facts a concrete record gives by unfolding. Imports only the library.
-/
import Idealize.ShloMosaic.PureOps.Ideal.Laws
import Idealize.ShloMosaic.Lib.ValueIdx

namespace Idealize.ShloMosaic.MatmulRowsByCols

open Idealize.ShloMosaic Idealize.ShloMosaic.ValueIdx

/-- `matmul D prec l r 0` at `(p, q)` is `∑ k, l (p, k) * r (k, q)`. -/
theorem matmul_zero_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂)
    (p : Fin M) (q : Fin N) :
    matmul D prec l r (constant (F := Ideal) ⟨2, ![M, N]⟩ .f32 0x00000000#32) (ix2 p q)
      = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulRowsByCols
-- ==== Proof.LibJointLayout.lean ====
/-
  Layout operations of small ranks read at coordinates: the casts and broadcasts a kernel uses to pair every row of
  one matrix with every row of another and to flatten the pairs into the rows of one matrix.

  A shape cast reads the operand at the index with the same row-major position, a broadcast at the index whose
  coordinates on the operand's unit axes are `0`. Stated here over arbitrary extents, with both indices written by
  their coordinates:

    unit axes dropped            [1, 1, a, b] → [a, b],   [1, a, 1, b] → [a, b]
    a unit axis put in the middle [a, c] → [a, 1, c]
    two leading unit axes added   [c] → [1, 1, c]
    a matrix's rows repeated      [a, 1, c] → [a, b, c]  (along the new middle axis),  [1, b, c] → [a, b, c]  (along the new leading axis)
    a vector repeated             [1, 1, c] → [a, b, c]
    pairs flattened and restored  [a, b, c] → [n, c]  and  [n, c] → [a, b, c]  with  n = a · b : row  i · b + k  is the pair  (i, k).

  Imports only the library.
-/
import Idealize.ShloMosaic.Lib.Pipeline.Value
import Idealize.ShloMosaic.Lib.ValueIdx

namespace Idealize.ShloMosaic.JointLayout

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.add_zero])

/-- A `[1, a, 1, b]` array cast to `[a, b]` reads, at `(i, j)`, the operand at `(0, i, 0, j)`. -/
theorem shapeCast_1a1b_ab_apply {a b : ℕ} (x : (⟨4, ![1, a, 1, b]⟩ : Shape).Idx → α)
    (h : (⟨4, ![1, a, 1, b]⟩ : Shape).ShapeCasts ⟨2, ![a, b]⟩) (i : Fin a) (j : Fin b) :
    shapeCast ⟨2, ![a, b]⟩ x h (ix2 i j) = x (ix4 (0 : Fin 1) i (0 : Fin 1) j) :=
  shapeCast_apply x h _ _ (by
    rw [Shape.rowMajor_val_four, Shape.rowMajor_val_two]
    show ((0 * a + i.val) * 1 + 0) * b + j.val = i.val * b + j.val
    simp only [Nat.zero_mul, Nat.zero_add, Nat.add_zero, Nat.mul_one])

/-- An `[a, c]` array cast to `[a, 1, c]` reads, at `(i, u, j)`, the operand at `(i, j)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- A `[c]` array cast to `[1, 1, c]` reads, at `(u, w, j)`, the operand at `j`. -/
theorem shapeCast_c_11c_apply {c : ℕ} (x : (⟨1, ![c]⟩ : Shape).Idx → α)
    (h : (⟨1, ![c]⟩ : Shape).ShapeCasts ⟨3, ![1, 1, c]⟩) (u w : Fin 1) (j : Fin c) :
    shapeCast ⟨3, ![1, 1, c]⟩ x h (ix3 u w j) = x (ix1 j) :=
  shapeCast_apply x h _ _ (by
    have hu : u.val = 0 := by omega
    have hw : w.val = 0 := by omega
    rw [Shape.rowMajor_val_three, Shape.rowMajor_val_one]
    show j.val = (u.val * 1 + w.val) * c + j.val
    simp only [hu, hw, Nat.zero_mul, Nat.zero_add, Nat.mul_one])

/-- An `[a, 1, c]` array broadcast to `[a, b, c]` reads, at `(i, k, j)`, the operand at `(i, 0, j)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ x h (ix3 i k j) = x (ix3 i (0 : Fin 1) j) := by
  refine broadcastTo_apply x h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(i, k, j)`, the operand at `(0, k, j)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (k : Fin b) (j : Fin c) :
    broadcastTo ⟨3, ![a, b, c]⟩ x h (ix3 i k j) = x (ix3 (0 : Fin 1) k j) := by
  refine broadcastTo_apply x h (ix3 i k j) (ix3 (0 : Fin 1) k j) fun ax => ?_
  match ax with
  | ⟨0, _⟩ => rfl
  | ⟨1, _⟩ =>
    show k.val = if b = 1 then 0 else k.val
    split
    · have := k.isLt; omega
    · rfl
  | ⟨2, _⟩ =>
    show j.val = if c = 1 then 0 else j.val
    split
    · have := j.isLt; omega
    · rfl

/-- A `[1, 1, c]` array broadcast to `[a, b, c]` reads, at `(i, k, j)`, the operand at `(0, 0, j)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (k : Fin b) (j : Fin c) :
    broadcastTo ⟨3, ![a, b, c]⟩ x h (ix3 i k j) = x (ix3 (0 : Fin 1) (0 : Fin 1) j) := by
  refine broadcastTo_apply x h (ix3 i k j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

/-- An `[a, b, c]` array cast to `[n, c]` reads, at row `r = i · b + k` and column `j`, the operand at `(i, k, j)`. -/
theorem shapeCast_abc_nc_apply {a b c n : ℕ} (x : (⟨3, ![a, b, c]⟩ : Shape).Idx → α)
    (h : (⟨3, ![a, b, c]⟩ : Shape).ShapeCasts ⟨2, ![n, c]⟩) (r : Fin n) (i : Fin a) (k : Fin b) (j : Fin c)
    (hr : r.val = i.val * b + k.val) :
    shapeCast ⟨2, ![n, c]⟩ x h (ix2 r j) = x (ix3 i k j) :=
  shapeCast_apply x h _ _ (by
    rw [Shape.rowMajor_val_three, Shape.rowMajor_val_two]
    show (i.val * b + k.val) * c + j.val = r.val * c + j.val
    rw [hr])

/-- An `[n, c]` array cast to `[a, b, c]` reads, at `(i, k, j)`, the operand at row `r = i · b + k` and column `j`. -/
theorem shapeCast_nc_abc_apply {a b c n : ℕ} (x : (⟨2, ![n, c]⟩ : Shape).Idx → α)
    (h : (⟨2, ![n, c]⟩ : Shape).ShapeCasts ⟨3, ![a, b, c]⟩) (r : Fin n) (i : Fin a) (k : Fin b) (j : Fin c)
    (hr : r.val = i.val * b + k.val) :
    shapeCast ⟨3, ![a, b, c]⟩ x h (ix3 i k j) = x (ix2 r j) :=
  shapeCast_apply x h _ _ (by
    rw [Shape.rowMajor_val_three, Shape.rowMajor_val_two]
    show r.val * c + j.val = (i.val * b + k.val) * c + j.val
    rw [hr])

end Idealize.ShloMosaic.JointLayout
-- ==== Proof.LibColumnLayout.lean ====
/-
  Layout operations read at an index given by coordinates, for the shapes a kernel meets when it works on a square
  tile one column at a time and stores the tile into a stack of tiles:

  * a column `[a, 1]` broadcast over `[a, b]` reads, at `(p, c)`, the column's entry `p`;
  * an `[a, b]` array cast to `[1, 1, a, b]` reads, at `(u, v, i, j)`, the operand at `(i, j)`;
  * a rank-4 array whose axes are permuted by `[0, 2, 3, 1]` (a channel axis moved from second to last) reads, at
    `(m, i, j, c)`, the operand at `(m, c, i, j)`.

  Each is the general lemma of the layout library with the coordinate arithmetic discharged.
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A rank-4 array with its second axis moved last (permutation `[0, 2, 3, 1]`) reads, at `(m, i, j, c)`, the
    operand at `(m, c, i, j)`. -/
theorem transpose_ix4_0231_apply {n c a b : ℕ} (x : (⟨4, ![n, c, a, b]⟩ : Shape).Idx → α)
    (h : (⟨4, ![n, c, a, b]⟩ : Shape).Transposes [0, 2, 3, 1] ⟨4, ![n, a, b, c]⟩)
    (m : Fin n) (i : Fin a) (j : Fin b) (k : Fin c) :
    transpose ⟨4, ![n, a, b, c]⟩ [0, 2, 3, 1] x h (ix4 m i j k) = x (ix4 m k i j) :=
  transpose_apply _ x h _ _ fun d => match d with
    | ⟨0, _⟩ => rfl | ⟨1, _⟩ => rfl | ⟨2, _⟩ => rfl | ⟨3, _⟩ => rfl

end Idealize.ShloMosaic.ValueIdx
-- ==== Proof.LibVectorAsColumn.lean ====
/-
  A vector viewed as a one-column matrix, read at an index given by coordinates: an `[a]` array cast to `[a, 1]` (what
  `v.reshape(a, 1)` or `v[:, None]` is, as a shape cast) reads, at `(i, u)`, the vector's entry `i`. The layout library
  has the row form `[a] → [1, a]`; this is the column form, with the row-major arithmetic discharged the same way.
-/
import Idealize.ShloMosaic.Lib.Pipeline.Value
import Idealize.ShloMosaic.Lib.ValueIdx

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ValueIdx
-- ==== Proof.AttnBody.lean ====
/-
  The attention kernel's body on the extended reals, read at an entry of its output tile.

  The body takes a tile of 1024 query rows and all 2048 key and value rows of one head (each row has 64 lanes). It forms
  the scores `s(n, m) = (∑ₖ q(n, k) · K(m, k)) · 1/8`, takes every row's maximum folded from −∞, the weights
  `w(n, m) = exp (s(n, m) − max s(n, ·))`, every row's sum of weights, the weighted sums `∑ₘ w(n, m) · V(m, d)`, and divides
  each weighted sum by its row's sum of weights. Read at the entry `(n, d)` that is the row of softmax attention of query
  row `n` against the keys and values, normalised after the weighted sum (`Cert.Attn.rowAfter`). The changes of rank
  (a `[1, 1, a, b]` tile seen as `[a, b]` and back, a vector seen as a column and repeated along the rows) and the narrowing
  of the weights and of the result (the identity on the extended reals) move no entry.
-/
import proofs.«122774_j65481071402676_2_alg».proof.Proof.Gen.KernelIdeal.Skeleton
import proofs.«122774_j65481071402676_2_alg».proof.Proof.Spec
import proofs.«122774_j65481071402676_2_alg».proof.Proof.LibMatmulRowsByRowsOf
import proofs.«122774_j65481071402676_2_alg».proof.Proof.LibMatmulRowsByCols
import proofs.«122774_j65481071402676_2_alg».proof.Proof.LibJointLayout
import proofs.«122774_j65481071402676_2_alg».proof.Proof.LibColumnLayout
import proofs.«122774_j65481071402676_2_alg».proof.Proof.LibVectorAsColumn

noncomputable section

namespace Cert.Attn.Body

open Cert.KernelIdeal Cert.KernelIdeal.Gen Idealize.ShloMosaic Idealize.ShloMosaic.ValueIdx

/-! ## The two matrix products at an entry -/

theorem qk_lhs0 (j : S1024x2048.Idx) (q : dot_S1024x64_S2048x64_S1024x2048_1_1_0_0_n_n.contr.Idx) :
    (dot_S1024x64_S2048x64_S1024x2048_1_1_0_0_n_n.lhsIdx j q 0).val = (j 0).val := by
  unfold DotDims.lhsIdx
  rw [dif_neg (show ¬(0 : Fin S1024x64.rank) ∈ dot_S1024x64_S2048x64_S1024x2048_1_1_0_0_n_n.lhsBatch by decide),
    dif_pos (show (0 : Fin S1024x64.rank) ∈ dot_S1024x64_S2048x64_S1024x2048_1_1_0_0_n_n.lhsNonContracting by decide)]
  rfl
theorem qk_lhs1 (j : S1024x2048.Idx) (q : dot_S1024x64_S2048x64_S1024x2048_1_1_0_0_n_n.contr.Idx) :
    (dot_S1024x64_S2048x64_S1024x2048_1_1_0_0_n_n.lhsIdx j q 1).val = (q ⟨0, by decide⟩).val :=
  dot_S1024x64_S2048x64_S1024x2048_1_1_0_0_n_n.lhsIdx_val_of_single rfl j q
theorem qk_rhs0 (j : S1024x2048.Idx) (q : dot_S1024x64_S2048x64_S1024x2048_1_1_0_0_n_n.contr.Idx) :
    (dot_S1024x64_S2048x64_S1024x2048_1_1_0_0_n_n.rhsIdx j q 0).val = (j 1).val := by
  unfold DotDims.rhsIdx
  rw [dif_neg (show ¬(0 : Fin S2048x64.rank) ∈ dot_S1024x64_S2048x64_S1024x2048_1_1_0_0_n_n.rhsBatch by decide),
    dif_pos (show (0 : Fin S2048x64.rank) ∈ dot_S1024x64_S2048x64_S1024x2048_1_1_0_0_n_n.rhsNonContracting by decide)]
  rfl
theorem qk_rhs1 (j : S1024x2048.Idx) (q : dot_S1024x64_S2048x64_S1024x2048_1_1_0_0_n_n.contr.Idx) :
    (dot_S1024x64_S2048x64_S1024x2048_1_1_0_0_n_n.rhsIdx j q 1).val = (q ⟨0, by decide⟩).val :=
  dot_S1024x64_S2048x64_S1024x2048_1_1_0_0_n_n.rhsIdx_val_of_single rfl j q

/-- The product of the query tile with the transposed keys, at `(n, m)`: the inner product of query row `n` and key row `m`. -/
theorem qk_apply (a : FVec Ideal S1024x64 .bf16) (b : FVec Ideal S2048x64 .bf16) (n : Fin 1024) (m : Fin 2048) :
    matmul (F := Ideal) dot_S1024x64_S2048x64_S1024x2048_1_1_0_0_n_n none a b (constant (F := Ideal) S1024x2048 .f32 0x00000000#32) (ix2 n m)
      = ∑ k : Fin 64, a (ix2 n k) * b (ix2 m k) :=
  MatmulRowsByRowsOf.matmul_zero_apply (M := 1024) (K := 64) (N := 2048) dot_S1024x64_S2048x64_S1024x2048_1_1_0_0_n_n rfl rfl
    qk_lhs0 qk_lhs1 qk_rhs0 qk_rhs1 none a b n m

theorem pv_lhs0 (j : S1024x64.Idx) (q : dot_S1024x2048_S2048x64_S1024x64_1_0_0_1_n_n.contr.Idx) :
    (dot_S1024x2048_S2048x64_S1024x64_1_0_0_1_n_n.lhsIdx j q 0).val = (j 0).val := by
  unfold DotDims.lhsIdx
  rw [dif_neg (show ¬(0 : Fin S1024x2048.rank) ∈ dot_S1024x2048_S2048x64_S1024x64_1_0_0_1_n_n.lhsBatch by decide),
    dif_pos (show (0 : Fin S1024x2048.rank) ∈ dot_S1024x2048_S2048x64_S1024x64_1_0_0_1_n_n.lhsNonContracting by decide)]
  rfl
theorem pv_lhs1 (j : S1024x64.Idx) (q : dot_S1024x2048_S2048x64_S1024x64_1_0_0_1_n_n.contr.Idx) :
    (dot_S1024x2048_S2048x64_S1024x64_1_0_0_1_n_n.lhsIdx j q 1).val = (q ⟨0, by decide⟩).val :=
  dot_S1024x2048_S2048x64_S1024x64_1_0_0_1_n_n.lhsIdx_val_of_single rfl j q
theorem pv_rhs0 (j : S1024x64.Idx) (q : dot_S1024x2048_S2048x64_S1024x64_1_0_0_1_n_n.contr.Idx) :
    (dot_S1024x2048_S2048x64_S1024x64_1_0_0_1_n_n.rhsIdx j q 0).val = (q ⟨0, by decide⟩).val :=
  dot_S1024x2048_S2048x64_S1024x64_1_0_0_1_n_n.rhsIdx_val_of_single rfl j q
theorem pv_rhs1 (j : S1024x64.Idx) (q : dot_S1024x2048_S2048x64_S1024x64_1_0_0_1_n_n.contr.Idx) :
    (dot_S1024x2048_S2048x64_S1024x64_1_0_0_1_n_n.rhsIdx j q 1).val = (j 1).val := by
  unfold DotDims.rhsIdx
  rw [dif_neg (show ¬(1 : Fin S2048x64.rank) ∈ dot_S1024x2048_S2048x64_S1024x64_1_0_0_1_n_n.rhsBatch by decide),
    dif_pos (show (1 : Fin S2048x64.rank) ∈ dot_S1024x2048_S2048x64_S1024x64_1_0_0_1_n_n.rhsNonContracting by decide)]
  rfl

/-- The product of the weights with the values, at `(n, d)`: the sum over the keys of weight times value. -/
theorem pv_apply (a : FVec Ideal S1024x2048 .bf16) (b : FVec Ideal S2048x64 .bf16) (n : Fin 1024) (d : Fin 64) :
    matmul (F := Ideal) dot_S1024x2048_S2048x64_S1024x64_1_0_0_1_n_n none a b (constant (F := Ideal) S1024x64 .f32 0x00000000#32) (ix2 n d)
      = ∑ m : Fin 2048, a (ix2 n m) * b (ix2 m d) :=
  MatmulRowsByCols.matmul_zero_apply (M := 1024) (K := 2048) (N := 64) dot_S1024x2048_S2048x64_S1024x64_1_0_0_1_n_n rfl rfl
    pv_lhs0 pv_lhs1 pv_rhs0 pv_rhs1 none a b n d

/-! ## A row's maximum and sum, repeated along the row -/

/-- The index of a `[1024, 2048]` array over row `n` with `k` put on the reduced axis is `(n, k)`. -/
theorem lift_row (h : S1024x2048.Reduces [1] S1024) (n : Fin 1024) (k : Fin 2048) : h.lift (ix1 n) k = ix2 n k :=
  funext fun c => Fin.ext (by
    match c with
    | ⟨0, _⟩ => rfl
    | ⟨1, _⟩ => rfl)

/-- Every row's maximum folded from −∞, as a column, repeated along the row. -/
def rowMaxOf (x : FVec Ideal S1024x2048 .f32) : FVec Ideal S1024x2048 .f32 :=
  broadcastTo S1024x2048 (shapeCast S1024x1 (multiReduction (F := Ideal) .maximumf [1] S1024 x 0xFF800000#32))

theorem rowMaxOf_apply (x : FVec Ideal S1024x2048 .f32) (n : Fin 1024) (m : Fin 2048) :
    rowMaxOf x (ix2 n m) = (Finset.univ : Finset (Fin 2048)).fold max negInf (fun k => x (ix2 n k)) := by
  unfold rowMaxOf
  refine (broadcastTo_a1_ab_apply (a := 1024) (b := 2048) _ _ n m).trans ?_
  refine (shapeCast_a_a1_apply (a := 1024) _ _ n (0 : Fin 1)).trans ?_
  refine (Ideal.multiReduction_maximumf_single x _ _ _ _ (ix1 n)).trans ?_
  exact congrArg (fun g : Fin 2048 → S1024x2048.Idx => (Finset.univ : Finset (Fin 2048)).fold max negInf (fun k => x (g k)))
    (funext fun k => lift_row _ n k)

/-- Every row's sum, as a column, repeated over 64 lanes. -/
def rowSumOf (x : FVec Ideal S1024x2048 .f32) : FVec Ideal S1024x64 .f32 :=
  broadcastTo S1024x64 (shapeCast S1024x1 (multiReduction (F := Ideal) .add [1] S1024 x 0x00000000#32))

theorem rowSumOf_apply (x : FVec Ideal S1024x2048 .f32) (n : Fin 1024) (d : Fin 64) :
    rowSumOf x (ix2 n d) = ∑ k : Fin 2048, x (ix2 n k) := by
  unfold rowSumOf
  refine (broadcastTo_a1_ab_apply (a := 1024) (b := 64) _ _ n d).trans ?_
  refine (shapeCast_a_a1_apply (a := 1024) _ _ n (0 : Fin 1)).trans ?_
  refine (Ideal.multiReduction_add_single x _ _ _ _ (ix1 n)).trans ?_
  exact Finset.sum_congr rfl fun k _ => congrArg x (lift_row _ n k)

/-! ## The body, stage by stage -/

/-- Query row `n` of the tile. -/
abbrev qRow (v0 : Vec Ideal S1x1x1024x64 .bf16) (n : Fin 1024) : Fin 64 → EReal := fun d' => v0 (ix4 (0 : Fin 1) (0 : Fin 1) n d')
/-- The 2048 rows of a key or value block. -/
abbrev rows (v : Vec Ideal S1x1x2048x64 .bf16) : Fin 2048 → Fin 64 → EReal := fun m d' => v (ix4 (0 : Fin 1) (0 : Fin 1) m d')

/-- The scaled scores of the tile against the keys. -/
def tileScores (v0 : Vec Ideal S1x1x1024x64 .bf16) (v2 : Vec Ideal S1x1x2048x64 .bf16) : FVec Ideal S1024x2048 .f32 :=
  mulf (matmul (F := Ideal) dot_S1024x64_S2048x64_S1024x2048_1_1_0_0_n_n none
      (shapeCast S1024x64 v0 : FVec Ideal S1024x64 .bf16) (shapeCast S2048x64 v2 : FVec Ideal S2048x64 .bf16)
      (constant (F := Ideal) S1024x2048 .f32 0x00000000#32))
    (broadcast S1024x2048 (Scalar.ofBits (F := Ideal) .f32 0x3E000000#32))

theorem tileScores_apply (v0 : Vec Ideal S1x1x1024x64 .bf16) (v2 : Vec Ideal S1x1x2048x64 .bf16) (n : Fin 1024) (m : Fin 2048) :
    tileScores v0 v2 (ix2 n m) = score (qRow v0 n) (rows v2) m := by
  unfold tileScores score
  refine (mulf_apply _ _ _).trans ?_
  refine congrArg₂ (fun s t : EReal => s * t) ?_ rfl
  refine (qk_apply _ _ n m).trans ?_
  exact Finset.sum_congr rfl fun k _ =>
    congrArg₂ (fun s t : EReal => s * t) (JointLayout.shapeCast_11ab_ab_apply (a := 1024) (b := 64) v0 _ n k)
      (JointLayout.shapeCast_11ab_ab_apply (a := 2048) (b := 64) v2 _ m k)

/-- The unnormalised weights of the tile. -/
def tileWeights (v0 : Vec Ideal S1x1x1024x64 .bf16) (v2 : Vec Ideal S1x1x2048x64 .bf16) : FVec Ideal S1024x2048 .f32 :=
  exp (subf (tileScores v0 v2) (rowMaxOf (tileScores v0 v2)))

theorem tileWeights_apply (v0 : Vec Ideal S1x1x1024x64 .bf16) (v2 : Vec Ideal S1x1x2048x64 .bf16) (n : Fin 1024) (m : Fin 2048) :
    tileWeights v0 v2 (ix2 n m) = weight (qRow v0 n) (rows v2) m := by
  have hmax : rowMaxOf (tileScores v0 v2) (ix2 n m) = rowMax (qRow v0 n) (rows v2) := by
    refine (rowMaxOf_apply _ n m).trans ?_
    exact congrArg (fun f : Fin 2048 → EReal => (Finset.univ : Finset (Fin 2048)).fold max negInf f)
      (funext fun k => tileScores_apply v0 v2 n k)
  show Ideal.exp (tileScores v0 v2 (ix2 n m) - rowMaxOf (tileScores v0 v2) (ix2 n m))
    = Ideal.exp (score (qRow v0 n) (rows v2) m - rowMax (qRow v0 n) (rows v2))
  rw [hmax, tileScores_apply]

/-- The body is the weighted sums of the values divided by the rows' sums of weights. -/
theorem pay_eq (v0 : Vec Ideal S1x1x1024x64 .bf16) (v2 v4 : Vec Ideal S1x1x2048x64 .bf16) :
    k1_pay1 (F := Ideal) v0 v2 v4
      = shapeCast S1x1x1024x64 (truncf .bf16 (divf
          (matmul (F := Ideal) dot_S1024x2048_S2048x64_S1024x64_1_0_0_1_n_n none (truncf .bf16 (tileWeights v0 v2))
            (shapeCast S2048x64 v4 : FVec Ideal S2048x64 .bf16) (constant (F := Ideal) S1024x64 .f32 0x00000000#32))
          (rowSumOf (tileWeights v0 v2)))) := rfl

/-- The body at `(0, 0, n, d)`: the row of attention of query row `n`, normalised after the weighted sum. -/
theorem attn_payload (v0 : Vec Ideal S1x1x1024x64 .bf16) (v2 v4 : Vec Ideal S1x1x2048x64 .bf16) (n : Fin 1024) (d : Fin 64) :
    k1_pay1 (F := Ideal) v0 v2 v4 (ix4 (0 : Fin 1) (0 : Fin 1) n d)
      = Cert.Attn.rowAfter (fun d' => v0 (ix4 (0 : Fin 1) (0 : Fin 1) n d')) (fun m d' => v2 (ix4 (0 : Fin 1) (0 : Fin 1) m d'))
          (fun m d' => v4 (ix4 (0 : Fin 1) (0 : Fin 1) m d')) d := by
  rw [pay_eq]
  refine (shapeCast_ab_11ab_apply (a := 1024) (b := 64) _ _ (0 : Fin 1) (0 : Fin 1) n d).trans ?_
  have hnum : matmul (F := Ideal) dot_S1024x2048_S2048x64_S1024x64_1_0_0_1_n_n none (truncf .bf16 (tileWeights v0 v2))
        (shapeCast S2048x64 v4 : FVec Ideal S2048x64 .bf16) (constant (F := Ideal) S1024x64 .f32 0x00000000#32) (ix2 n d)
      = ∑ m : Fin 2048, weight (qRow v0 n) (rows v2) m * rows v4 m d := by
    refine (pv_apply _ _ n d).trans ?_
    exact Finset.sum_congr rfl fun m _ =>
      congrArg₂ (fun s t : EReal => s * t) (tileWeights_apply v0 v2 n m)
        (JointLayout.shapeCast_11ab_ab_apply (a := 2048) (b := 64) v4 _ m d)
  have hden : rowSumOf (tileWeights v0 v2) (ix2 n d) = norm (qRow v0 n) (rows v2) := by
    refine (rowSumOf_apply _ n d).trans ?_
    exact Finset.sum_congr rfl fun m _ => tileWeights_apply v0 v2 n m
  exact congrArg₂ Ideal.div hnum hden

end Cert.Attn.Body

end
-- ==== Proof.Region1.lean ====
/-
  The second region (attention, one head and one tile of 1024 query rows per grid point): its output array, after the
  region, is one whole-array function of the three arrays in head layout [4, 16, 2048, 64] the region finds — queries
  Q, keys K, values V.

  The grid is 4 × 16 × 2; point (b, h, qi) stages rows 1024·qi … 1024·qi + 1023 of head (b, h) of Q and all 2048 rows of
  that head of K and V, and writes, for each staged query row, the softmax-weighted mean of the value rows (the weighted
  sum divided by the normaliser) to the same rows of head (b, h) of the output. So the output ends as the row-wise
  function `attnAfter Q K V`, and the 128 blocks cover the array.
-/
import proofs.«122774_j65481071402676_2_alg».proof.Proof.Gen.KernelIdeal.Frame
import proofs.«122774_j65481071402676_2_alg».proof.Proof.Spec
import proofs.«122774_j65481071402676_2_alg».proof.Proof.AttnBody
import Idealize.ShloMosaic.Lib.Pipeline.Value

set_option maxRecDepth 16384

noncomputable section

namespace Cert.Attn.R1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz4 : (![0, 0, 0, 0] : Fin 4 → Nat) = fun _ => 0 := funext fun a => by fin_cases a <;> rfl

/-- One entry of a block the body computes, against the whole-array attention: the body's value at `y` is the attention
    at the array index `i` that `y` sits at, when the staged query block is rows `n0 …` of head `(b, h)` of `Q` and the
    staged key and value blocks are that head of `K` and `Vv`. -/
theorem point_attn (x0 : Vec Ideal S1x1x1024x64 .bf16) (x1 x2 : Vec Ideal S1x1x2048x64 .bf16) (pay : FVec Ideal S1x1x1024x64 .bf16)
    (hpay : ∀ (n : Fin 1024) (d : Fin 64), pay (ix4 (0 : Fin 1) (0 : Fin 1) n d)
      = rowAfter (fun d' => x0 (ix4 (0 : Fin 1) (0 : Fin 1) n d')) (fun m d' => x1 (ix4 (0 : Fin 1) (0 : Fin 1) m d'))
          (fun m d' => x2 (ix4 (0 : Fin 1) (0 : Fin 1) m d')) d)
    (Q K Vv : SHeads.Idx → EReal) (b : Fin 4) (h : Fin 16) (n0 : ℕ) (hn0 : n0 + 1024 ≤ 2048)
    (hx0 : ∀ (n : Fin 1024) (d : Fin 64), x0 (ix4 (0 : Fin 1) (0 : Fin 1) n d) = Q (ix4 b h (⟨n0 + n.val, by omega⟩ : Fin 2048) d))
    (hx1 : ∀ (m : Fin 2048) (d : Fin 64), x1 (ix4 (0 : Fin 1) (0 : Fin 1) m d) = K (ix4 b h m d))
    (hx2 : ∀ (m : Fin 2048) (d : Fin 64), x2 (ix4 (0 : Fin 1) (0 : Fin 1) m d) = Vv (ix4 b h m d))
    (y : S1x1x1024x64.Idx) (i : S4x16x2048x64.Idx)
    (hi0 : (i 0).val = b.val) (hi1 : (i 1).val = h.val) (hi2 : (i 2).val = n0 + (y 2).val) (hi3 : (i 3).val = (y 3).val) :
    pay y = attnAfter Q K Vv i := by
  have hy0 : (y 0).val < 1 := (y 0).isLt
  have hy1 : (y 1).val < 1 := (y 1).isLt
  have hy2 : (y 2).val < 1024 := (y 2).isLt
  have hy3 : (y 3).val < 64 := (y 3).isLt
  have ey : y = ix4 (0 : Fin 1) (0 : Fin 1) (⟨(y 2).val, hy2⟩ : Fin 1024) (⟨(y 3).val, hy3⟩ : Fin 64) :=
    funext fun a => Fin.ext (by
      match a with
      | ⟨0, _⟩ => show (y 0).val = 0; omega
      | ⟨1, _⟩ => show (y 1).val = 0; omega
      | ⟨2, _⟩ => rfl
      | ⟨3, _⟩ => rfl)
  have ei : i = ix4 b h (⟨n0 + (y 2).val, by omega⟩ : Fin 2048) (⟨(y 3).val, hy3⟩ : Fin 64) :=
    funext fun a => Fin.ext (by
      match a with
      | ⟨0, _⟩ => exact hi0
      | ⟨1, _⟩ => exact hi1
      | ⟨2, _⟩ => exact hi2
      | ⟨3, _⟩ => exact hi3)
  have e1 : (fun d' => x0 (ix4 (0 : Fin 1) (0 : Fin 1) (⟨(y 2).val, hy2⟩ : Fin 1024) d'))
      = rowOf Q b h (⟨n0 + (y 2).val, by omega⟩ : Fin 2048) := funext fun d' => hx0 _ d'
  have e2 : (fun m d' => x1 (ix4 (0 : Fin 1) (0 : Fin 1) m d')) = rowsOf K b h := funext fun m => funext fun d' => hx1 m d'
  have e3 : (fun m d' => x2 (ix4 (0 : Fin 1) (0 : Fin 1) m d')) = rowsOf Vv b h := funext fun m => funext fun d' => hx2 m d'
  rw [ey, hpay, ei]
  exact congrFun (congr (congr (congrArg rowAfter e1) e2) e3) _

/-- The printed index maps, decided over the grid: the query block of a point is the output block's; the key and value
    blocks are the whole head of the output block's batch and head; the output's block indices stay in their ranges. -/
theorem idx_facts : ∀ t : Fin cfg1.N,
    win1_0.index t (0 : Fin 4) = win1_3.index t (0 : Fin 4) ∧ win1_0.index t (1 : Fin 4) = win1_3.index t (1 : Fin 4)
    ∧ win1_0.index t (2 : Fin 4) = win1_3.index t (2 : Fin 4) ∧ win1_0.index t (3 : Fin 4) = 0
    ∧ win1_1.index t (0 : Fin 4) = win1_3.index t (0 : Fin 4) ∧ win1_1.index t (1 : Fin 4) = win1_3.index t (1 : Fin 4)
    ∧ win1_1.index t (2 : Fin 4) = 0 ∧ win1_1.index t (3 : Fin 4) = 0
    ∧ win1_2.index t (0 : Fin 4) = win1_3.index t (0 : Fin 4) ∧ win1_2.index t (1 : Fin 4) = win1_3.index t (1 : Fin 4)
    ∧ win1_2.index t (2 : Fin 4) = 0 ∧ win1_2.index t (3 : Fin 4) = 0
    ∧ win1_3.index t (0 : Fin 4) < 4 ∧ win1_3.index t (1 : Fin 4) < 16 ∧ win1_3.index t (2 : Fin 4) < 2
    ∧ win1_3.index t (3 : Fin 4) = 0 :=
  (by decide +kernel : ∀ t : Fin grid1.N, _)

/-- Every block of the output is some point's. -/
theorem idx_onto : ∀ (b : Fin 4) (h : Fin 16) (qi : Fin 2), ∃ t : Fin cfg1.N, win1_3.index t = ![b.val, h.val, qi.val, 0] :=
  (by decide +kernel : ∀ (b : Fin 4) (h : Fin 16) (qi : Fin 2), ∃ t : Fin grid1.N, win1_3.index t = ![b.val, h.val, qi.val, 0])

/-- What point `t` writes back is block `t` of the attention of the arrays the region finds. -/
theorem flushed3_eq (c : Dev nD) (t : Fin cfg1.N) :
    (dat1 V c).flushed 3 t = ((cfg1.win 3).blk t).view.read (Elt Ideal) (attnAfter (V c main_v5) (V c main_v7) (V c main_v9)) := by
  show (cfg1.win 3).cut (grid1.coords t) ((dat1 V c).after 3 t) = _
  rw [after1_3]
  unfold out1_3
  rw [View.canon_unit_zero hz4]
  simp only [View.ld_unit_zero (S := S1x1x1024x64) hz4, View.ld_unit_zero (S := S1x1x2048x64) hz4]
  obtain ⟨a0, a1, a2, a3, b0, b1, b2, b3, c0, c1, c2, c3, d0, d1, d2, d3⟩ := idx_facts t
  funext j
  exact point_attn (iblk1 V c 0 t) (iblk1 V c 1 t) (iblk1 V c 2 t) (k1_pay1 (iblk1 V c 0 t) (iblk1 V c 1 t) (iblk1 V c 2 t))
    (fun n d => Body.attn_payload (iblk1 V c 0 t) (iblk1 V c 1 t) (iblk1 V c 2 t) n d)
    (V c main_v5) (V c main_v7) (V c main_v9)
    (⟨win1_3.index t (0 : Fin 4), d0⟩ : Fin 4) (⟨win1_3.index t (1 : Fin 4), d1⟩ : Fin 16) (win1_3.index t (2 : Fin 4) * 1024) (by omega)
    (fun n d => by
      show V c main_v5 (((cfg1.win 0).blk t).view.emb (ix4 (0 : Fin 1) (0 : Fin 1) n d)) = _
      refine congrArg (V c main_v5) (funext fun a => Fin.ext ?_)
      match a with
      | ⟨0, _⟩ => show win1_0.index t (0 : Fin 4) * 1 + 1 * 0 = win1_3.index t (0 : Fin 4); omega
      | ⟨1, _⟩ => show win1_0.index t (1 : Fin 4) * 1 + 1 * 0 = win1_3.index t (1 : Fin 4); omega
      | ⟨2, _⟩ => show win1_0.index t (2 : Fin 4) * 1024 + 1 * n.val = win1_3.index t (2 : Fin 4) * 1024 + n.val; omega
      | ⟨3, _⟩ => show win1_0.index t (3 : Fin 4) * 64 + 1 * d.val = d.val; omega)
    (fun m d => by
      show V c main_v7 (((cfg1.win 1).blk t).view.emb (ix4 (0 : Fin 1) (0 : Fin 1) m d)) = _
      refine congrArg (V c main_v7) (funext fun a => Fin.ext ?_)
      match a with
      | ⟨0, _⟩ => show win1_1.index t (0 : Fin 4) * 1 + 1 * 0 = win1_3.index t (0 : Fin 4); omega
      | ⟨1, _⟩ => show win1_1.index t (1 : Fin 4) * 1 + 1 * 0 = win1_3.index t (1 : Fin 4); omega
      | ⟨2, _⟩ => show win1_1.index t (2 : Fin 4) * 2048 + 1 * m.val = m.val; omega
      | ⟨3, _⟩ => show win1_1.index t (3 : Fin 4) * 64 + 1 * d.val = d.val; omega)
    (fun m d => by
      show V c main_v9 (((cfg1.win 2).blk t).view.emb (ix4 (0 : Fin 1) (0 : Fin 1) m d)) = _
      refine congrArg (V c main_v9) (funext fun a => Fin.ext ?_)
      match a with
      | ⟨0, _⟩ => show win1_2.index t (0 : Fin 4) * 1 + 1 * 0 = win1_3.index t (0 : Fin 4); omega
      | ⟨1, _⟩ => show win1_2.index t (1 : Fin 4) * 1 + 1 * 0 = win1_3.index t (1 : Fin 4); omega
      | ⟨2, _⟩ => show win1_2.index t (2 : Fin 4) * 2048 + 1 * m.val = m.val; omega
      | ⟨3, _⟩ => show win1_2.index t (3 : Fin 4) * 64 + 1 * d.val = d.val; omega)
    ((cfg1.win 3).xinj (grid1.coords t) j) (((cfg1.win 3).blk t).view.emb j)
    (by show win1_3.index t (0 : Fin 4) * 1 + 1 * (j 0).val = win1_3.index t (0 : Fin 4); have hj : (j 0).val < 1 := (j 0).isLt; omega)
    (by show win1_3.index t (1 : Fin 4) * 1 + 1 * (j 1).val = win1_3.index t (1 : Fin 4); have hj : (j 1).val < 1 := (j 1).isLt; omega)
    (by show win1_3.index t (2 : Fin 4) * 1024 + 1 * (j 2).val = win1_3.index t (2 : Fin 4) * 1024 + (j 2).val; omega)
    (by show win1_3.index t (3 : Fin 4) * 64 + 1 * (j 3).val = (j 3).val; omega)

/-- An index of the array is in point `t`'s block iff each coordinate is in the block's range on its axis. -/
theorem mem_blk3 (t : Fin cfg1.N) (i : S4x16x2048x64.Idx) :
    i ∈ ((cfg1.win 3).blk t).view.set ↔ ∀ a : Fin 4, win1_3.index t a * S1x1x1024x64.size a ≤ (i a).val ∧ (i a).val < win1_3.index t a * S1x1x1024x64.size a + S1x1x1024x64.size a := by
  show i ∈ ((View.whole main_v10).slice (win1_3.rect t)).set ↔ _
  rw [View.set_slice_whole, Rect.mem_set_unit]
  exact Iff.rfl

/-- Entry (b, h, n, d) lies in the block of the point (b, h, n / 1024): the blocks cover the array. -/
theorem cover3 (i : S4x16x2048x64.Idx) : ∃ t : Fin cfg1.N, (cfg1.win 3).flush t = true ∧ i ∈ ((cfg1.win 3).blk t).view.set := by
  have hi0 : (i 0).val < 4 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 1).val, hi1⟩ ⟨(i 2).val / 1024, by omega⟩
  have q0 : win1_3.index t (0 : Fin 4) = (i 0).val := congrFun ht 0
  have q1 : win1_3.index t (1 : Fin 4) = (i 1).val := congrFun ht 1
  have q2 : win1_3.index t (2 : Fin 4) = (i 2).val / 1024 := congrFun ht 2
  have q3 : win1_3.index t (3 : Fin 4) = 0 := congrFun ht 3
  refine ⟨t, flush1_3 t, ?_⟩
  rw [mem_blk3]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 1 ≤ (i 1).val ∧ (i 1).val < win1_3.index t (1 : Fin 4) * 1 + 1; omega
  | ⟨2, _⟩ => show win1_3.index t (2 : Fin 4) * 1024 ≤ (i 2).val ∧ (i 2).val < win1_3.index t (2 : Fin 4) * 1024 + 1024; omega
  | ⟨3, _⟩ => show win1_3.index t (3 : Fin 4) * 64 ≤ (i 3).val ∧ (i 3).val < win1_3.index t (3 : Fin 4) * 64 + 64; omega

/-- The array after the region: the attention of the arrays the region finds. -/
theorem final3 (c : Dev nD) : (dat1 V c).arrAt 3 cfg1.N = attnAfter (V c main_v5) (V c main_v7) (V c main_v9) :=
  (dat1 V c).arrAt_eq_of_cover 3 _ (fun t _ => flushed3_eq V c t) cover3

end Cert.Attn.R1

end
-- ==== Proof.Region2.lean ====
/-
  The third region (the output projection with its bias): its output array, after the region, is one whole-array
  function of the three arrays the region finds — the attention output A [8192, 1024] with batch and position
  flattened, the weight Wo [1024, 1024] and the bias as a one-row matrix B [1, 1024].

  The grid has 8 points; point `t` stages rows 1024·t … 1024·t + 1023 of A and all of Wo and B, and writes
  A_t · Woᵀ + B to the same rows of the output. So the output ends as `(r, c) ↦ ∑ₑ A(r, e) · Wo(c, e) + B(0, c)`.
-/
import proofs.«122774_j65481071402676_2_alg».proof.Proof.Gen.KernelIdeal.Frame
import proofs.«122774_j65481071402676_2_alg».proof.Proof.Flat
import proofs.«122774_j65481071402676_2_alg».proof.Proof.ProjBody
import Idealize.ShloMosaic.Lib.Pipeline.Value

set_option maxRecDepth 16384

noncomputable section

namespace Cert.Attn.R2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- One entry of a block the body computes, against the whole-array output stage. -/
theorem point_out (x0 x1 : Vec Ideal S1024x1024 .bf16) (x2 : Vec Ideal S1x1024 .f32) (pay : FVec Ideal S1024x1024 .f32)
    (hpay : ∀ (p q : Fin 1024), pay (ix2 p q) = (∑ e : Fin 1024, x0 (ix2 p e) * x1 (ix2 q e)) + x2 (ix2 (0 : Fin 1) q))
    (A : S2d.Idx → EReal) (Wo : SW1.Idx → EReal) (B : SRow.Idx → EReal) (r0 : ℕ) (hr0 : r0 + 1024 ≤ 8192)
    (hx0 : ∀ (p e : Fin 1024), x0 (ix2 p e) = A (ix2 (⟨r0 + p.val, by omega⟩ : Fin 8192) e))
    (hx1 : ∀ (q e : Fin 1024), x1 (ix2 q e) = Wo (ix2 q e))
    (hx2 : ∀ (q : Fin 1024), x2 (ix2 (0 : Fin 1) q) = B (ix2 (0 : Fin 1) q))
    (y : S1024x1024.Idx) (i : S8192x1024.Idx) (hi0 : (i 0).val = r0 + (y 0).val) (hi1 : (i 1).val = (y 1).val) :
    pay y = flatOut A Wo B i := by
  have hy0 : (y 0).val < 1024 := (y 0).isLt
  have hy1 : (y 1).val < 1024 := (y 1).isLt
  have ey : y = ix2 (⟨(y 0).val, hy0⟩ : Fin 1024) (⟨(y 1).val, hy1⟩ : Fin 1024) :=
    funext fun a => by match a with | ⟨0, _⟩ => rfl | ⟨1, _⟩ => rfl
  rw [ey, hpay]
  unfold flatOut
  refine congrArg₂ (· + ·) (Finset.sum_congr rfl fun e _ => ?_) ?_
  · rw [hx0, hx1]
    refine congrArg₂ (· * ·) (congrArg A (funext fun a => Fin.ext ?_)) (congrArg Wo (funext fun a => Fin.ext ?_))
    · match a with
      | ⟨0, _⟩ => exact hi0.symm
      | ⟨1, _⟩ => rfl
    · match a with
      | ⟨0, _⟩ => exact hi1.symm
      | ⟨1, _⟩ => rfl
  · rw [hx2]
    refine congrArg B (funext fun a => Fin.ext ?_)
    match a with
    | ⟨0, _⟩ => rfl
    | ⟨1, _⟩ => exact hi1.symm

/-- The printed index maps, decided over the grid: the input block and the output block of point `t` are block row
    `t`; the weight's and the bias's one block is the whole array. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of the output stage of the arrays the region finds. -/
theorem flushed3_eq (c : Dev nD) (t : Fin cfg2.N) :
    (dat2 V c).flushed 3 t = ((cfg2.win 3).blk t).view.read (Elt Ideal) (flatOut (V c main_v13) (V c main_v1) (V c main_v14)) := by
  show (cfg2.win 3).cut (grid2.coords t) ((dat2 V c).after 3 t) = _
  rw [after2_3]
  unfold out2_3
  rw [View.canon_unit_zero hz]
  simp only [View.ld_unit_zero (S := S1024x1024) hz, View.ld_unit_zero (S := S1x1024) hz]
  obtain ⟨e00, e01, e10, e11, e20, e21, e30, e31⟩ := idx_facts t
  have ht : t.val < grid2.N := t.isLt
  rw [N_2] at ht
  funext j
  exact point_out (iblk2 V c 0 t) (iblk2 V c 1 t) (iblk2 V c 2 t) (k2_pay1 (iblk2 V c 0 t) (iblk2 V c 1 t) (iblk2 V c 2 t))
    (fun p q => Body.out_payload (iblk2 V c 0 t) (iblk2 V c 1 t) (iblk2 V c 2 t) p q)
    (V c main_v13) (V c main_v1) (V c main_v14) (t.val * 1024) (by omega)
    (fun p e => by
      show V c main_v13 (((cfg2.win 0).blk t).view.emb (ix2 p e)) = _
      refine congrArg (V c main_v13) (funext fun a => Fin.ext ?_)
      match a with
      | ⟨0, _⟩ => show win2_0.index t (0 : Fin 2) * 1024 + 1 * p.val = t.val * 1024 + p.val; omega
      | ⟨1, _⟩ => show win2_0.index t (1 : Fin 2) * 1024 + 1 * e.val = e.val; omega)
    (fun q e => by
      show V c main_v1 (((cfg2.win 1).blk t).view.emb (ix2 q e)) = _
      refine congrArg (V c main_v1) (funext fun a => Fin.ext ?_)
      match a with
      | ⟨0, _⟩ => show win2_1.index t (0 : Fin 2) * 1024 + 1 * q.val = q.val; omega
      | ⟨1, _⟩ => show win2_1.index t (1 : Fin 2) * 1024 + 1 * e.val = e.val; omega)
    (fun q => by
      show V c main_v14 (((cfg2.win 2).blk t).view.emb (ix2 (0 : Fin 1) q)) = _
      refine congrArg (V c main_v14) (funext fun a => Fin.ext ?_)
      match a with
      | ⟨0, _⟩ => show win2_2.index t (0 : Fin 2) * 1 + 1 * 0 = 0; omega
      | ⟨1, _⟩ => show win2_2.index t (1 : Fin 2) * 1024 + 1 * q.val = q.val; omega)
    ((cfg2.win 3).xinj (grid2.coords t) j) (((cfg2.win 3).blk t).view.emb j)
    (by show win2_3.index t (0 : Fin 2) * 1024 + 1 * (j 0).val = t.val * 1024 + (j 0).val; omega)
    (by show win2_3.index t (1 : Fin 2) * 1024 + 1 * (j 1).val = (j 1).val; omega)

/-- An index of the array is in point `t`'s block iff each coordinate is in the block's range on its axis. -/
theorem mem_blk3 (t : Fin cfg2.N) (i : S8192x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v15).slice (win2_3.rect t)).set ↔ _
  rw [View.set_slice_whole, Rect.mem_set_unit]
  exact Iff.rfl

/-- Row `r` lies in the block of point `r / 1024`: the blocks cover the array. -/
theorem cover3 (i : S8192x1024.Idx) : ∃ t : Fin cfg2.N, (cfg2.win 3).flush t = true ∧ i ∈ ((cfg2.win 3).blk t).view.set := by
  have hi0 : (i 0).val < 8192 := (i 0).isLt
  have hi1 : (i 1).val < 1024 := (i 1).isLt
  have hN : grid2.N = 8 := N_2
  obtain ⟨t, ht⟩ : ∃ t : Fin cfg2.N, t.val = (i 0).val / 1024 := ⟨⟨(i 0).val / 1024, by show (i 0).val / 1024 < grid2.N; rw [hN]; omega⟩, rfl⟩
  refine ⟨t, flush2_3 t, ?_⟩
  rw [mem_blk3]
  obtain ⟨e00, e01, e10, e11, e20, e21, e30, e31⟩ := idx_facts t
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1024 ≤ (i 1).val ∧ (i 1).val < win2_3.index t (1 : Fin 2) * 1024 + 1024; omega

/-- The array after the region: the output stage of the arrays the region finds. -/
theorem final3 (c : Dev nD) : (dat2 V c).arrAt 3 cfg2.N = flatOut (V c main_v13) (V c main_v1) (V c main_v14) :=
  (dat2 V c).arrAt_eq_of_cover 3 _ (fun t _ => flushed3_eq V c t) cover3

end Cert.Attn.R2

end
-- ==== Proof.Glue.lean ====
/-
  The layout steps between the kernel's regions, read at coordinates.

  The regions of the first and third stage see batch and position flattened (row `r = 2048·b + n`); the attention region
  sees head layout [4, 16, 2048, 64]. Between them the program reshapes and transposes: a flattened projection, reshaped
  to [4, 2048, 16, 64] (feature `c` is head `c / 64`, lane `c % 64`) and transposed to head layout, is the projection in
  head layout of the unflattened input; and the attention output, transposed back, reshaped to [4, 2048, 1024] and
  flattened, then put through the flattened output stage and unflattened, is the output projection at (b, n, c).
  Every step is a row-major re-indexing, so each equation is an identity between the flat positions of two indices.
-/
import proofs.«122774_j65481071402676_2_alg».proof.Proof.Spec
import proofs.«122774_j65481071402676_2_alg».proof.Proof.Flat
import Idealize.ShloMosaic.Lib.Pipeline.Value

noncomputable section

namespace Cert.Attn.Glue

open Idealize.ShloMosaic Idealize.ShloMosaic.ValueIdx

abbrev SSplit : Shape := ⟨4, ![4, 2048, 16, 64]⟩

/-- A flattened projection of the flattened input, split into heads and transposed to head layout, is the projection in
    head layout. -/
theorem heads_eq (off : ℕ) (hoff : off + 1024 ≤ 3072) (x : SX.Idx → EReal) (w : SW3.Idx → EReal)
    (h1 : SX.ShapeCasts S2d) (h2 : S2d.ShapeCasts SSplit) (h3 : SSplit.Transposes [0, 2, 1, 3] SHeads) :
    transpose SHeads [0, 2, 1, 3] (shapeCast SSplit (flatProj off hoff (shapeCast S2d x h1) w) h2) h3 = proj off hoff x w := by
  funext i
  have hi0 : (i 0).val < 4 := (i 0).isLt
  have hi1 : (i 1).val < 16 := (i 1).isLt
  have hi2 : (i 2).val < 2048 := (i 2).isLt
  have hi3 : (i 3).val < 64 := (i 3).isLt
  refine (transpose_apply [0, 2, 1, 3] _ h3 i
    (ix4 (⟨(i 0).val, hi0⟩ : Fin 4) (⟨(i 2).val, hi2⟩ : Fin 2048) (⟨(i 1).val, hi1⟩ : Fin 16) (⟨(i 3).val, hi3⟩ : Fin 64))
    (fun b => by match b with | ⟨0, _⟩ => rfl | ⟨1, _⟩ => rfl | ⟨2, _⟩ => rfl | ⟨3, _⟩ => rfl)).trans ?_
  refine (shapeCast_apply _ h2 _
    (ix2 (⟨(i 0).val * 2048 + (i 2).val, by omega⟩ : Fin 8192) (⟨(i 1).val * 64 + (i 3).val, by omega⟩ : Fin 1024)) (by
      rw [Shape.rowMajor_val_two, Shape.rowMajor_val_four]
      show ((i 0).val * 2048 + (i 2).val) * 1024 + ((i 1).val * 64 + (i 3).val)
        = (((i 0).val * 2048 + (i 2).val) * 16 + (i 1).val) * 64 + (i 3).val
      omega)).trans ?_
  unfold flatProj proj projAt
  refine Finset.sum_congr rfl fun e _ => congrArg₂ (· * ·) ?_ ?_
  · refine (shapeCast_apply x h1 _ (ix3 (⟨(i 0).val, hi0⟩ : Fin 4) (⟨(i 2).val, hi2⟩ : Fin 2048) e) (by
      rw [Shape.rowMajor_val_three, Shape.rowMajor_val_two]
      show ((i 0).val * 2048 + (i 2).val) * 1024 + e.val = ((i 0).val * 2048 + (i 2).val) * 1024 + e.val
      rfl)).trans ?_
    exact congrArg x (funext fun a => Fin.ext (by match a with | ⟨0, _⟩ => rfl | ⟨1, _⟩ => rfl | ⟨2, _⟩ => rfl))
  · exact congrArg w (funext fun a => Fin.ext (by
      match a with
      | ⟨0, _⟩ => show off + ((i 1).val * 64 + (i 3).val) = off + (64 * (i 1).val + (i 3).val); omega
      | ⟨1, _⟩ => rfl))

/-- The attention output in head layout, transposed back, merged and flattened, through the flattened output stage with
    the bias as a row, and unflattened: the output projection. -/
theorem out_eq (o : SHeads.Idx → EReal) (wo : SW1.Idx → EReal) (bias : SBias.Idx → EReal)
    (h1 : SHeads.Transposes [0, 2, 1, 3] SSplit) (h2 : SSplit.ShapeCasts SX) (h3 : SX.ShapeCasts S2d)
    (h4 : SBias.ShapeCasts SRow) (h5 : S2d.ShapeCasts SX) :
    shapeCast SX (flatOut (shapeCast S2d (shapeCast SX (transpose SSplit [0, 2, 1, 3] o h1) h2) h3) wo (shapeCast SRow bias h4)) h5
      = out o wo bias := by
  funext i
  have hi0 : (i 0).val < 4 := (i 0).isLt
  have hi1 : (i 1).val < 2048 := (i 1).isLt
  have hi2 : (i 2).val < 1024 := (i 2).isLt
  refine (shapeCast_apply _ h5 i
    (ix2 (⟨(i 0).val * 2048 + (i 1).val, by omega⟩ : Fin 8192) (⟨(i 2).val, hi2⟩ : Fin 1024)) (by
      rw [Shape.rowMajor_val_two, Shape.rowMajor_val_three]
      show ((i 0).val * 2048 + (i 1).val) * 1024 + (i 2).val = ((i 0).val * 2048 + (i 1).val) * 1024 + (i 2).val
      rfl)).trans ?_
  unfold flatOut out outAt
  refine congrArg₂ (· + ·) (Finset.sum_congr rfl fun e _ => congrArg₂ (· * ·) ?_ ?_) ?_
  · have he : e.val < 1024 := e.isLt
    refine (shapeCast_apply _ h3 _ (ix3 (⟨(i 0).val, hi0⟩ : Fin 4) (⟨(i 1).val, hi1⟩ : Fin 2048) e) (by
      rw [Shape.rowMajor_val_three, Shape.rowMajor_val_two]
      show ((i 0).val * 2048 + (i 1).val) * 1024 + e.val = ((i 0).val * 2048 + (i 1).val) * 1024 + e.val
      rfl)).trans ?_
    refine (shapeCast_apply _ h2 _
      (ix4 (⟨(i 0).val, hi0⟩ : Fin 4) (⟨(i 1).val, hi1⟩ : Fin 2048) (⟨e.val / 64, by omega⟩ : Fin 16) (⟨e.val % 64, by omega⟩ : Fin 64)) (by
        rw [Shape.rowMajor_val_four, Shape.rowMajor_val_three]
        show (((i 0).val * 2048 + (i 1).val) * 16 + e.val / 64) * 64 + e.val % 64 = ((i 0).val * 2048 + (i 1).val) * 1024 + e.val
        omega)).trans ?_
    refine (transpose_apply [0, 2, 1, 3] o h1 _
      (ix4 (⟨(i 0).val, hi0⟩ : Fin 4) (⟨e.val / 64, by omega⟩ : Fin 16) (⟨(i 1).val, hi1⟩ : Fin 2048) (⟨e.val % 64, by omega⟩ : Fin 64))
      (fun b => by match b with | ⟨0, _⟩ => rfl | ⟨1, _⟩ => rfl | ⟨2, _⟩ => rfl | ⟨3, _⟩ => rfl)).trans ?_
    exact congrArg o (funext fun a => Fin.ext (by match a with | ⟨0, _⟩ => rfl | ⟨1, _⟩ => rfl | ⟨2, _⟩ => rfl | ⟨3, _⟩ => rfl))
  · exact congrArg wo (funext fun a => Fin.ext (by match a with | ⟨0, _⟩ => rfl | ⟨1, _⟩ => rfl))
  · refine (shapeCast_apply bias h4 _ (ix1 (⟨(i 2).val, hi2⟩ : Fin 1024)) (by
      rw [Shape.rowMajor_val_one, Shape.rowMajor_val_two]
      show (i 2).val = 0 * 1024 + (i 2).val
      omega)).trans ?_
    exact congrArg bias (funext fun a => Fin.ext (by match a with | ⟨0, _⟩ => rfl))

end Cert.Attn.Glue

end
-- ==== Proof.ValueRun.lean ====
/-
  The idealized kernel's run with its result named: every weakly fair execution of the program terminates without a
  fault, the arguments end unchanged, and the result array holds what the last stretch of host operations leaves of the
  third region's output — the buffer contents at the last segment boundary, read at the result's buffer. The three regions
  and the four stretches of host operations around them are the segments of the generated frame; this is that frame's run
  with one more buffer read off the last boundary.
-/
import proofs.«122774_j65481071402676_2_alg».proof.Proof.Gen.KernelIdeal.Frame

set_option maxRecDepth 16384

noncomputable section

namespace Cert.Attn.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the segments' implicit arguments are found by unifying the conclusion, which takes unfolding plain definitions in a
-- metavariable's type
set_option backward.isDefEq.respectTransparency.types false in
/-- The run of the three regions among their host operations, ending with the result's buffer at the last boundary's
    contents and the four arguments as launched. -/
theorem run_result : θ_run defs (onTc (τ := τ) (main (F := F))) ⟨m, fun _ => 0, ρ⟩ (fun r => ∀ c : Dev nD,
      r.2.mem ((c.tc : Thread nD τ).loc main_v16) = W7 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v16 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c)⟩)

end Cert.Attn.Run

end
-- ==== Proof.KernelValue.lean ====
/-
  The idealized kernel's result as one function of the four argument arrays.

  The run ends with the result's buffer at the contents of the last segment boundary. Walking the boundaries back: the
  last host operation unflattens the third region's output; that output is the flattened output stage of the arrays the
  third region finds (its attention input transposed back, merged and flattened by the host operations before it, the
  weight as the program's first host operations left it — at the ideal values a change of float format is the identity —
  and the bias as a row); the second region's output is the attention of the three arrays in head layout it finds, each
  of which the host operations made from an output of the first region by splitting the features into heads and
  transposing; and the first region's outputs are the three flattened projections of the flattened input. Put together
  (the layout steps are row-major re-indexings) the result is the specification's `kernelFn` of the arguments.
-/
import proofs.«122774_j65481071402676_2_alg».proof.Proof.Gen.KernelIdeal.Frame
import proofs.«122774_j65481071402676_2_alg».proof.Proof.Region0
import proofs.«122774_j65481071402676_2_alg».proof.Proof.Region1
import proofs.«122774_j65481071402676_2_alg».proof.Proof.Region2
import proofs.«122774_j65481071402676_2_alg».proof.Proof.Glue
import proofs.«122774_j65481071402676_2_alg».proof.Proof.ValueRun
import Idealize.ShloMosaic.Lib.StableHlo.Run

set_option maxRecDepth 16384

noncomputable section

namespace Cert.Attn.KV

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The four argument arrays as launched. -/
abbrev arg0 (c : Dev nD) : S4x2048x1024.Idx → EReal := m ((c : Thread nD τ).loc main_arg0)
abbrev arg1 (c : Dev nD) : S3072x1024.Idx → EReal := m ((c : Thread nD τ).loc main_arg1)
abbrev arg2 (c : Dev nD) : S1024x1024.Idx → EReal := m ((c : Thread nD τ).loc main_arg2)
abbrev arg3 (c : Dev nD) : S1024.Idx → EReal := m ((c : Thread nD τ).loc main_arg3)

/-! ## What the first region finds -/

theorem V1_v2 (c : Dev nD) : (V1 m ρ c main_v2 : S8192x1024.Idx → EReal)
    = shapeCast S8192x1024 (arg0 m c) shapeCasts_S4x2048x1024_S8192x1024 := by
  show StableHlo.after hostOps0 (W0 m ρ c) (Proc.devRef .tc main_v2) = _
  dsimp only [hostOps0]
  after_results <;> rfl

theorem V1_v0 (c : Dev nD) : (V1 m ρ c main_v0 : S3072x1024.Idx → EReal) = arg1 m c := by
  show StableHlo.after hostOps0 (W0 m ρ c) (Proc.devRef .tc main_v0) = _
  dsimp only [hostOps0]
  after_results <;> rfl

/-! ## The first region's three outputs -/

theorem W2_q (c : Dev nD) : (W2 m ρ c (Proc.devRef .tc main_v3_0) : S8192x1024.Idx → EReal)
    = flatProj 0 (by omega) (shapeCast S8192x1024 (arg0 m c) shapeCasts_S4x2048x1024_S8192x1024) (arg1 m c) :=
  (W2_arr m ρ c 2).trans ((R0.final2 (V1 m ρ) c).trans (congrArg₂ (flatProj 0 (by omega)) (V1_v2 m ρ c) (V1_v0 m ρ c)))
theorem W2_k (c : Dev nD) : (W2 m ρ c (Proc.devRef .tc main_v3_1) : S8192x1024.Idx → EReal)
    = flatProj 1024 (by omega) (shapeCast S8192x1024 (arg0 m c) shapeCasts_S4x2048x1024_S8192x1024) (arg1 m c) :=
  (W2_arr m ρ c 3).trans ((R0.final3 (V1 m ρ) c).trans (congrArg₂ (flatProj 1024 (by omega)) (V1_v2 m ρ c) (V1_v0 m ρ c)))
theorem W2_v (c : Dev nD) : (W2 m ρ c (Proc.devRef .tc main_v3_2) : S8192x1024.Idx → EReal)
    = flatProj 2048 (by omega) (shapeCast S8192x1024 (arg0 m c) shapeCasts_S4x2048x1024_S8192x1024) (arg1 m c) :=
  (W2_arr m ρ c 4).trans ((R0.final4 (V1 m ρ) c).trans (congrArg₂ (flatProj 2048 (by omega)) (V1_v2 m ρ c) (V1_v0 m ρ c)))

/-! ## What the second region finds: the projections in head layout -/

theorem V3_q (c : Dev nD) : (V3 m ρ c main_v5 : S4x16x2048x64.Idx → EReal) = proj 0 (by omega) (arg0 m c) (arg1 m c) := by
  have e : (V3 m ρ c main_v5 : S4x16x2048x64.Idx → EReal)
      = transpose S4x16x2048x64 [0, 2, 1, 3] (shapeCast S4x2048x16x64 (W2 m ρ c (Proc.devRef .tc main_v3_0) : S8192x1024.Idx → EReal)
          shapeCasts_S8192x1024_S4x2048x16x64) transposes_S4x2048x16x64_S4x16x2048x64_0_2_1_3 := by
    show StableHlo.after hostOps1 (W2 m ρ c) (Proc.devRef .tc main_v5) = _
    dsimp only [hostOps1]
    after_results <;> rfl
  rw [e, W2_q]
  exact Glue.heads_eq 0 (by omega) _ _ shapeCasts_S4x2048x1024_S8192x1024 shapeCasts_S8192x1024_S4x2048x16x64 transposes_S4x2048x16x64_S4x16x2048x64_0_2_1_3
theorem V3_k (c : Dev nD) : (V3 m ρ c main_v7 : S4x16x2048x64.Idx → EReal) = proj 1024 (by omega) (arg0 m c) (arg1 m c) := by
  have e : (V3 m ρ c main_v7 : S4x16x2048x64.Idx → EReal)
      = transpose S4x16x2048x64 [0, 2, 1, 3] (shapeCast S4x2048x16x64 (W2 m ρ c (Proc.devRef .tc main_v3_1) : S8192x1024.Idx → EReal)
          shapeCasts_S8192x1024_S4x2048x16x64) transposes_S4x2048x16x64_S4x16x2048x64_0_2_1_3 := by
    show StableHlo.after hostOps1 (W2 m ρ c) (Proc.devRef .tc main_v7) = _
    dsimp only [hostOps1]
    after_results <;> rfl
  rw [e, W2_k]
  exact Glue.heads_eq 1024 (by omega) _ _ shapeCasts_S4x2048x1024_S8192x1024 shapeCasts_S8192x1024_S4x2048x16x64 transposes_S4x2048x16x64_S4x16x2048x64_0_2_1_3
theorem V3_v (c : Dev nD) : (V3 m ρ c main_v9 : S4x16x2048x64.Idx → EReal) = proj 2048 (by omega) (arg0 m c) (arg1 m c) := by
  have e : (V3 m ρ c main_v9 : S4x16x2048x64.Idx → EReal)
      = transpose S4x16x2048x64 [0, 2, 1, 3] (shapeCast S4x2048x16x64 (W2 m ρ c (Proc.devRef .tc main_v3_2) : S8192x1024.Idx → EReal)
          shapeCasts_S8192x1024_S4x2048x16x64) transposes_S4x2048x16x64_S4x16x2048x64_0_2_1_3 := by
    show StableHlo.after hostOps1 (W2 m ρ c) (Proc.devRef .tc main_v9) = _
    dsimp only [hostOps1]
    after_results <;> rfl
  rw [e, W2_v]
  exact Glue.heads_eq 2048 (by omega) _ _ shapeCasts_S4x2048x1024_S8192x1024 shapeCasts_S8192x1024_S4x2048x16x64 transposes_S4x2048x16x64_S4x16x2048x64_0_2_1_3

/-! ## The second region's output, and the two buffers it passes through untouched -/

theorem W4_o (c : Dev nD) : (W4 m ρ c (Proc.devRef .tc main_v10) : S4x16x2048x64.Idx → EReal)
    = attnAfter (proj 0 (by omega) (arg0 m c) (arg1 m c)) (proj 1024 (by omega) (arg0 m c) (arg1 m c)) (proj 2048 (by omega) (arg0 m c) (arg1 m c)) :=
  (W4_arr m ρ c 3).trans ((R1.final3 (V3 m ρ) c).trans (by rw [V3_q, V3_k, V3_v]))

/-- The output weight reaches the third region as the first host operations left it: the argument itself. -/
theorem W4_wo (c : Dev nD) : (W4 m ρ c (Proc.devRef .tc main_v1) : S1024x1024.Idx → EReal) = arg2 m c :=
  calc (W4 m ρ c (Proc.devRef .tc main_v1) : S1024x1024.Idx → EReal)
    _ = W3 m ρ c (Proc.devRef .tc main_v1) := W4_of_ne m ρ c main_v1 (by decide)
    _ = W2 m ρ c (Proc.devRef .tc main_v1) := by
        show StableHlo.after hostOps1 (W2 m ρ c) (Proc.devRef .tc main_v1) = _
        dsimp only [hostOps1]
        after_results <;> rfl
    _ = W1 m ρ c (Proc.devRef .tc main_v1) := W2_of_ne m ρ c main_v1 (by decide)
    _ = arg2 m c := by
        show StableHlo.after hostOps0 (W0 m ρ c) (Proc.devRef .tc main_v1) = _
        dsimp only [hostOps0]
        after_results <;> rfl

/-- The bias argument is untouched up to the third stretch of host operations. -/
theorem W4_bias (c : Dev nD) : (W4 m ρ c (Proc.devRef .tc main_arg3) : S1024.Idx → EReal) = arg3 m c :=
  calc (W4 m ρ c (Proc.devRef .tc main_arg3) : S1024.Idx → EReal)
    _ = W3 m ρ c (Proc.devRef .tc main_arg3) := W4_of_ne m ρ c main_arg3 (by decide)
    _ = W2 m ρ c (Proc.devRef .tc main_arg3) := by
        show StableHlo.after hostOps1 (W2 m ρ c) (Proc.devRef .tc main_arg3) = _
        dsimp only [hostOps1]
        after_results <;> rfl
    _ = W1 m ρ c (Proc.devRef .tc main_arg3) := W2_of_ne m ρ c main_arg3 (by decide)
    _ = arg3 m c := by
        show StableHlo.after hostOps0 (W0 m ρ c) (Proc.devRef .tc main_arg3) = _
        dsimp only [hostOps0]
        after_results <;> rfl

/-! ## What the third region finds -/

theorem V5_a (c : Dev nD) : (V5 m ρ c main_v13 : S8192x1024.Idx → EReal)
    = shapeCast S8192x1024 (shapeCast S4x2048x1024 (transpose S4x2048x16x64 [0, 2, 1, 3]
        (W4 m ρ c (Proc.devRef .tc main_v10) : S4x16x2048x64.Idx → EReal) transposes_S4x16x2048x64_S4x2048x16x64_0_2_1_3)
        shapeCasts_S4x2048x16x64_S4x2048x1024) shapeCasts_S4x2048x1024_S8192x1024 := by
  show StableHlo.after hostOps2 (W4 m ρ c) (Proc.devRef .tc main_v13) = _
  dsimp only [hostOps2]
  after_results <;> rfl

theorem V5_wo (c : Dev nD) : (V5 m ρ c main_v1 : S1024x1024.Idx → EReal) = arg2 m c := by
  have e : (V5 m ρ c main_v1 : S1024x1024.Idx → EReal) = W4 m ρ c (Proc.devRef .tc main_v1) := by
    show StableHlo.after hostOps2 (W4 m ρ c) (Proc.devRef .tc main_v1) = _
    dsimp only [hostOps2]
    after_results <;> rfl
  rw [e, W4_wo]

theorem V5_bias (c : Dev nD) : (V5 m ρ c main_v14 : S1x1024.Idx → EReal) = shapeCast S1x1024 (arg3 m c) shapeCasts_S1024_S1x1024 := by
  have e : (V5 m ρ c main_v14 : S1x1024.Idx → EReal)
      = shapeCast S1x1024 (W4 m ρ c (Proc.devRef .tc main_arg3) : S1024.Idx → EReal) shapeCasts_S1024_S1x1024 := by
    show StableHlo.after hostOps2 (W4 m ρ c) (Proc.devRef .tc main_v14) = _
    dsimp only [hostOps2]
    after_results <;> rfl
  rw [e, W4_bias]

/-! ## The third region's output and the result -/

theorem W6_out (c : Dev nD) : (W6 m ρ c (Proc.devRef .tc main_v15) : S8192x1024.Idx → EReal)
    = flatOut (V5 m ρ c main_v13) (V5 m ρ c main_v1) (V5 m ρ c main_v14) :=
  (W6_arr m ρ c 3).trans (R2.final3 (V5 m ρ) c)

/-- The result's buffer at the last boundary is the specification's function of the arguments. -/
theorem result_eq (c : Dev nD) : (W7 m ρ c (Proc.devRef .tc main_v16) : S4x2048x1024.Idx → EReal)
    = kernelFn (arg0 m c) (arg1 m c) (arg2 m c) (arg3 m c) := by
  have e : (W7 m ρ c (Proc.devRef .tc main_v16) : S4x2048x1024.Idx → EReal)
      = shapeCast S4x2048x1024 (W6 m ρ c (Proc.devRef .tc main_v15) : S8192x1024.Idx → EReal) shapeCasts_S8192x1024_S4x2048x1024 := by
    show StableHlo.after hostOps3 (W6 m ρ c) (Proc.devRef .tc main_v16) = _
    dsimp only [hostOps3]
    after_results <;> rfl
  rw [e, W6_out, V5_a, V5_wo, V5_bias, W4_o]
  exact Glue.out_eq _ _ _ transposes_S4x16x2048x64_S4x2048x16x64_0_2_1_3 shapeCasts_S4x2048x16x64_S4x2048x1024
    shapeCasts_S4x2048x1024_S8192x1024 shapeCasts_S1024_S1x1024 shapeCasts_S8192x1024_S4x2048x1024

/-- The idealized kernel's run with its result at the specification's function of the arguments, and the arguments
    unchanged. -/
theorem kernel_run : θ_run defs (onTc (τ := τ) (main (F := Ideal))) ⟨m, fun _ => 0, ρ⟩ (fun r => ∀ c : Dev nD,
      r.2.mem ((c.tc : Thread nD τ).loc main_v16) = kernelFn (arg0 m c) (arg1 m c) (arg2 m c) (arg3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (Run.run_result (F := Ideal) m ρ)

end Cert.Attn.KV

end
-- ==== Proof.RefIsSpec.lean ====
/-
  The reference program, read one operation at a time, computes the specification's `refFn`: the joint projection sliced in
  three, reshaped to heads and transposed is `proj` at offsets 0, 1024, 2048; the scaled scores, their row maximum folded
  from −∞ (and the further maximum with −∞, which changes nothing), the exponentials, their row sums from 0, the quotients
  and the product with the values are `attnBefore`; the transpose back, the reshape, the output projection and the
  broadcast bias are `out`.
-/
import proofs.«122774_j65481071402676_2_alg».proof.Proof.Gen.ReferenceIdeal.Read
import proofs.«122774_j65481071402676_2_alg».proof.Proof.Spec

noncomputable section

namespace Cert.Attn.Ref

open Idealize.ShloMosaic Idealize.ShloMosaic.ValueIdx Cert.ReferenceIdeal Cert.ReferenceIdeal.Gen Cert.ReferenceIdeal.Read

/-! ## The three projections in head layout

  Entry (b, h, n, d) of a transposed reshape is entry (b, n, 64·h + d) of the slice: the flat position
  ((b·2048 + n)·16 + h)·64 + d splits as b·2097152 + n·1024 + (64·h + d). -/

section Projections

variable (x0 : S4x2048x1024.Idx → EReal) (x1 : S3072x1024.Idx → EReal)

theorem v5_at (hoff : 0 + 1024 ≤ 3072) (b : Fin 4) (h : Fin 16) (n : Fin 2048) (d : Fin 64) :
    val_main_v5 (F := Ideal) x0 x1 (ix4 b h n d) = Cert.Attn.projAt 0 hoff x0 x1 b h n d := by
  have hb := b.isLt; have hh := h.isLt; have hn := n.isLt; have hd := d.isLt
  rw [val_main_v5_apply, val_main_v4_apply, val_main_v1_apply, val_main_v0_apply]
  unfold Cert.Attn.projAt
  refine Finset.sum_congr rfl fun e _ => ?_
  refine congrArg₂ (fun u v : EReal => u * v) (congrArg x0 ?_) (congrArg x1 ?_)
  · funext a
    apply Fin.ext
    match a with
    | ⟨0, _⟩ => show (((b.val * 2048 + n.val) * 16 + h.val) * 64 + d.val) / 2097152 = b.val; omega
    | ⟨1, _⟩ => show (((b.val * 2048 + n.val) * 16 + h.val) * 64 + d.val) / 1024 % 2048 = n.val; omega
    | ⟨2, _⟩ => rfl
  · funext a
    apply Fin.ext
    match a with
    | ⟨0, _⟩ => show (((b.val * 2048 + n.val) * 16 + h.val) * 64 + d.val) % 1024 = 0 + (64 * h.val + d.val); omega
    | ⟨1, _⟩ => rfl

theorem v7_at (hoff : 1024 + 1024 ≤ 3072) (b : Fin 4) (h : Fin 16) (n : Fin 2048) (d : Fin 64) :
    val_main_v7 (F := Ideal) x0 x1 (ix4 b h n d) = Cert.Attn.projAt 1024 hoff x0 x1 b h n d := by
  have hb := b.isLt; have hh := h.isLt; have hn := n.isLt; have hd := d.isLt
  rw [val_main_v7_apply, val_main_v6_apply, val_main_v2_apply, val_main_v0_apply]
  unfold Cert.Attn.projAt
  refine Finset.sum_congr rfl fun e _ => ?_
  refine congrArg₂ (fun u v : EReal => u * v) (congrArg x0 ?_) (congrArg x1 ?_)
  · funext a
    apply Fin.ext
    match a with
    | ⟨0, _⟩ => show (((b.val * 2048 + n.val) * 16 + h.val) * 64 + d.val) / 2097152 = b.val; omega
    | ⟨1, _⟩ => show (((b.val * 2048 + n.val) * 16 + h.val) * 64 + d.val) / 1024 % 2048 = n.val; omega
    | ⟨2, _⟩ => rfl
  · funext a
    apply Fin.ext
    match a with
    | ⟨0, _⟩ => show 1024 + (((b.val * 2048 + n.val) * 16 + h.val) * 64 + d.val) % 1024 = 1024 + (64 * h.val + d.val); omega
    | ⟨1, _⟩ => rfl

theorem v9_at (hoff : 2048 + 1024 ≤ 3072) (b : Fin 4) (h : Fin 16) (n : Fin 2048) (d : Fin 64) :
    val_main_v9 (F := Ideal) x0 x1 (ix4 b h n d) = Cert.Attn.projAt 2048 hoff x0 x1 b h n d := by
  have hb := b.isLt; have hh := h.isLt; have hn := n.isLt; have hd := d.isLt
  rw [val_main_v9_apply, val_main_v8_apply, val_main_v3_apply, val_main_v0_apply]
  unfold Cert.Attn.projAt
  refine Finset.sum_congr rfl fun e _ => ?_
  refine congrArg₂ (fun u v : EReal => u * v) (congrArg x0 ?_) (congrArg x1 ?_)
  · funext a
    apply Fin.ext
    match a with
    | ⟨0, _⟩ => show (((b.val * 2048 + n.val) * 16 + h.val) * 64 + d.val) / 2097152 = b.val; omega
    | ⟨1, _⟩ => show (((b.val * 2048 + n.val) * 16 + h.val) * 64 + d.val) / 1024 % 2048 = n.val; omega
    | ⟨2, _⟩ => rfl
  · funext a
    apply Fin.ext
    match a with
    | ⟨0, _⟩ => show 2048 + (((b.val * 2048 + n.val) * 16 + h.val) * 64 + d.val) % 1024 = 2048 + (64 * h.val + d.val); omega
    | ⟨1, _⟩ => rfl

theorem proj_q (hoff : 0 + 1024 ≤ 3072) : val_main_v5 (F := Ideal) x0 x1 = Cert.Attn.proj 0 hoff x0 x1 := by
  refine funext fun (i : S4x16x2048x64.Idx) => ?_
  exact (congrArg (val_main_v5 (F := Ideal) x0 x1) (eq_ix4 i)).trans (v5_at x0 x1 hoff (i 0) (i 1) (i 2) (i 3))

theorem proj_k (hoff : 1024 + 1024 ≤ 3072) : val_main_v7 (F := Ideal) x0 x1 = Cert.Attn.proj 1024 hoff x0 x1 := by
  refine funext fun (i : S4x16x2048x64.Idx) => ?_
  exact (congrArg (val_main_v7 (F := Ideal) x0 x1) (eq_ix4 i)).trans (v7_at x0 x1 hoff (i 0) (i 1) (i 2) (i 3))

theorem proj_v (hoff : 2048 + 1024 ≤ 3072) : val_main_v9 (F := Ideal) x0 x1 = Cert.Attn.proj 2048 hoff x0 x1 := by
  refine funext fun (i : S4x16x2048x64.Idx) => ?_
  exact (congrArg (val_main_v9 (F := Ideal) x0 x1) (eq_ix4 i)).trans (v9_at x0 x1 hoff (i 0) (i 1) (i 2) (i 3))

end Projections

/-! ## Attention, one query row at a time -/

section Attention

variable (x0 : S4x2048x1024.Idx → EReal) (x1 : S3072x1024.Idx → EReal)

/-- The scaled score of query row n against key row m. -/
theorem v12_at (b : Fin 4) (h : Fin 16) (n m : Fin 2048) :
    val_main_v12 (F := Ideal) x0 x1 (ix4 b h n m) = Cert.Attn.score (Cert.Attn.rowOf (val_main_v5 (F := Ideal) x0 x1) b h n) (Cert.Attn.rowsOf (val_main_v7 (F := Ideal) x0 x1) b h) m := by
  rw [val_main_v12_apply, val_main_v10_apply, val_main_v11_apply, val_main_cst_apply, Ideal.mulf_def]
  unfold Cert.Attn.score Cert.Attn.rowOf Cert.Attn.rowsOf
  refine congrArg₂ (fun u v : EReal => u * v) (Finset.sum_congr rfl fun k _ => ?_) ?_
  · refine congrArg₂ (fun u v : EReal => u * v) (congrArg (val_main_v5 (F := Ideal) x0 x1) ?_) (congrArg (val_main_v7 (F := Ideal) x0 x1) ?_)
    · exact funext fun a => Fin.ext (by match a with | ⟨0, _⟩ => rfl | ⟨1, _⟩ => rfl | ⟨2, _⟩ => rfl | ⟨3, _⟩ => rfl)
    · exact funext fun a => Fin.ext (by match a with | ⟨0, _⟩ => rfl | ⟨1, _⟩ => rfl | ⟨2, _⟩ => rfl | ⟨3, _⟩ => rfl)
  · rfl

/-- Row (b, h, n) with the key coordinate m put back is (b, h, n, m). -/
theorem lift_ix3 (hR : S4x16x2048x2048.Reduces [3] S4x16x2048) (b : Fin 4) (h : Fin 16) (n m : Fin 2048) :
    hR.lift (ix3 b h n) m = ix4 b h n m := by
  funext c
  apply Fin.ext
  match c with
  | ⟨0, _⟩ => rfl
  | ⟨1, _⟩ => rfl
  | ⟨2, _⟩ => rfl
  | ⟨3, _⟩ => rfl

/-- The row maximum: the fold from −∞ over the keys. -/
theorem v13_at (b : Fin 4) (h : Fin 16) (n : Fin 2048) :
    val_main_v13 (F := Ideal) x0 x1 (ix3 b h n)
      = (Finset.univ : Finset (Fin 2048)).fold max Cert.Attn.negInf (Cert.Attn.score (Cert.Attn.rowOf (val_main_v5 (F := Ideal) x0 x1) b h n) (Cert.Attn.rowsOf (val_main_v7 (F := Ideal) x0 x1) b h)) := by
  have hR : S4x16x2048x2048.Reduces [3] S4x16x2048 := by decide
  have hf : (fun m : Fin 2048 => val_main_v12 (F := Ideal) x0 x1 (hR.lift (ix3 b h n) m))
      = Cert.Attn.score (Cert.Attn.rowOf (val_main_v5 (F := Ideal) x0 x1) b h n) (Cert.Attn.rowsOf (val_main_v7 (F := Ideal) x0 x1) b h) :=
    funext fun m => (congrArg (val_main_v12 (F := Ideal) x0 x1) (lift_ix3 hR b h n m)).trans (v12_at x0 x1 b h n m)
  unfold val_main_v13
  refine (Host.reduce_eq_fold_single (α := Ideal .f32) (FloatOps.maximumf (F := Ideal) (φ := .f32)) (val_main_v12 (F := Ideal) x0 x1)
    (val_main_cst_0 (F := Ideal)) reducesTo_S4x16x2048x2048_S4x16x2048_d3 hR h_S_ (ix3 b h n)).trans ?_
  exact congrArg (fun f : Fin 2048 → EReal => (Finset.univ : Finset (Fin 2048)).fold max Cert.Attn.negInf f) hf

/-- The further maximum with −∞ leaves the row maximum as it is. -/
theorem v15_at (b : Fin 4) (h : Fin 16) (n : Fin 2048) :
    val_main_v15 (F := Ideal) x0 x1 (ix3 b h n) = Cert.Attn.rowMax (Cert.Attn.rowOf (val_main_v5 (F := Ideal) x0 x1) b h n) (Cert.Attn.rowsOf (val_main_v7 (F := Ideal) x0 x1) b h) := by
  rw [val_main_v15_apply, v13_at x0 x1 b h n, val_main_v14_apply, val_main_cst_1_apply, Ideal.maximumf_def]
  unfold Cert.Attn.rowMax
  exact max_eq_right ((Finset.le_fold_max _).mpr (Or.inl le_rfl))

/-- The weight of key m in row n. -/
theorem v19_at (b : Fin 4) (h : Fin 16) (n m : Fin 2048) :
    val_main_v19 (F := Ideal) x0 x1 (ix4 b h n m) = Cert.Attn.weight (Cert.Attn.rowOf (val_main_v5 (F := Ideal) x0 x1) b h n) (Cert.Attn.rowsOf (val_main_v7 (F := Ideal) x0 x1) b h) m := by
  have e : idx_main_v16 (idx_main_v17 (ix4 b h n m)) = ix3 b h n := funext fun a => Fin.ext (by match a with | ⟨0, _⟩ => rfl | ⟨1, _⟩ => rfl | ⟨2, _⟩ => rfl)
  rw [val_main_v19_apply, val_main_v18_apply, val_main_v17_apply, val_main_v16_apply, e, Ideal.hostUnary_exp_def,
    Ideal.subf_def, v12_at x0 x1 b h n m, v15_at x0 x1 b h n]
  rfl

/-- The normaliser of row n: the sum of its weights from 0. -/
theorem v20_at (b : Fin 4) (h : Fin 16) (n : Fin 2048) :
    val_main_v20 (F := Ideal) x0 x1 (ix3 b h n) = Cert.Attn.norm (Cert.Attn.rowOf (val_main_v5 (F := Ideal) x0 x1) b h n) (Cert.Attn.rowsOf (val_main_v7 (F := Ideal) x0 x1) b h) := by
  rw [val_main_v20_apply, val_main_cst_2_apply, Ideal.ofBits_def, Ideal.ofBits_zero_f32, zero_add]
  unfold Cert.Attn.norm
  refine Finset.sum_congr rfl fun k _ => ?_
  have e : idx_main_v20 (ix3 b h n) k = ix4 b h n k := funext fun a => Fin.ext (by match a with | ⟨0, _⟩ => rfl | ⟨1, _⟩ => rfl | ⟨2, _⟩ => rfl | ⟨3, _⟩ => rfl)
  rw [e]
  exact v19_at x0 x1 b h n k

/-- Every weight divided by the normaliser, then the weighted sum of the values. -/
theorem v24_at (b : Fin 4) (h : Fin 16) (n : Fin 2048) (d : Fin 64) :
    val_main_v24 (F := Ideal) x0 x1 (ix4 b h n d) = Cert.Attn.rowBefore (Cert.Attn.rowOf (val_main_v5 (F := Ideal) x0 x1) b h n) (Cert.Attn.rowsOf (val_main_v7 (F := Ideal) x0 x1) b h) (Cert.Attn.rowsOf (val_main_v9 (F := Ideal) x0 x1) b h) d := by
  rw [val_main_v24_apply]
  unfold Cert.Attn.rowBefore
  refine Finset.sum_congr rfl fun k _ => ?_
  have el : lidx_main_v24 (ix4 b h n d) k = ix4 b h n k := funext fun a => Fin.ext (by match a with | ⟨0, _⟩ => rfl | ⟨1, _⟩ => rfl | ⟨2, _⟩ => rfl | ⟨3, _⟩ => rfl)
  have er : ridx_main_v24 (ix4 b h n d) k = ix4 b h k d := funext fun a => Fin.ext (by match a with | ⟨0, _⟩ => rfl | ⟨1, _⟩ => rfl | ⟨2, _⟩ => rfl | ⟨3, _⟩ => rfl)
  have e2 : idx_main_v21 (idx_main_v22 (ix4 b h n k)) = ix3 b h n := funext fun a => Fin.ext (by match a with | ⟨0, _⟩ => rfl | ⟨1, _⟩ => rfl | ⟨2, _⟩ => rfl)
  rw [el, er, val_main_v23_apply, val_main_v22_apply, val_main_v21_apply, e2, Ideal.hostDivf_def, v19_at x0 x1 b h n k,
    v20_at x0 x1 b h n]
  rfl

theorem attn_eq : val_main_v24 (F := Ideal) x0 x1 = Cert.Attn.attnBefore (val_main_v5 (F := Ideal) x0 x1) (val_main_v7 (F := Ideal) x0 x1) (val_main_v9 (F := Ideal) x0 x1) := by
  refine funext fun (i : S4x16x2048x64.Idx) => ?_
  exact (congrArg (val_main_v24 (F := Ideal) x0 x1) (eq_ix4 i)).trans (v24_at x0 x1 (i 0) (i 1) (i 2) (i 3))

end Attention

/-! ## The output projection

  Entry (b, n, e) of the reshape of the transpose back is entry (b, e / 64, n, e % 64) of the heads: the flat position
  (b·2048 + n)·1024 + e splits as ((b·2048 + n)·16 + e / 64)·64 + e % 64. -/

section Output

variable (x0 : S4x2048x1024.Idx → EReal) (x1 : S3072x1024.Idx → EReal) (x2 : S1024x1024.Idx → EReal) (x3 : S1024.Idx → EReal)

theorem v30_at (b : Fin 4) (n : Fin 2048) (c : Fin 1024) :
    val_main_v30 (F := Ideal) x0 x1 x2 x3 (ix3 b n c) = Cert.Attn.outAt (val_main_v24 (F := Ideal) x0 x1) x2 x3 b n c := by
  have hb := b.isLt; have hn := n.isLt
  rw [val_main_v30_apply, val_main_v27_apply, val_main_v29_apply, val_main_v28_apply, Ideal.addf_def]
  unfold Cert.Attn.outAt
  refine congrArg₂ (fun u v : EReal => u + v) (Finset.sum_congr rfl fun e _ => ?_) (congrArg x3 ?_)
  · have he := e.isLt
    rw [val_main_v26_apply, val_main_v25_apply]
    refine congrArg₂ (fun u v : EReal => u * v) (congrArg (val_main_v24 (F := Ideal) x0 x1) ?_) (congrArg x2 ?_)
    · funext a
      apply Fin.ext
      match a with
      | ⟨0, _⟩ => show ((b.val * 2048 + n.val) * 1024 + e.val) / 2097152 = b.val; omega
      | ⟨1, _⟩ => show ((b.val * 2048 + n.val) * 1024 + e.val) / 64 % 16 = e.val / 64; omega
      | ⟨2, _⟩ => show ((b.val * 2048 + n.val) * 1024 + e.val) / 1024 % 2048 = n.val; omega
      | ⟨3, _⟩ => show ((b.val * 2048 + n.val) * 1024 + e.val) % 64 = e.val % 64; omega
    · exact funext fun a => Fin.ext (by match a with | ⟨0, _⟩ => rfl | ⟨1, _⟩ => rfl)
  · exact funext fun a => Fin.ext (by match a with | ⟨0, _⟩ => rfl)

theorem out_eq : val_main_v30 (F := Ideal) x0 x1 x2 x3 = Cert.Attn.out (val_main_v24 (F := Ideal) x0 x1) x2 x3 := by
  refine funext fun (i : S4x2048x1024.Idx) => ?_
  exact (congrArg (val_main_v30 (F := Ideal) x0 x1 x2 x3) (eq_ix3 i)).trans (v30_at x0 x1 x2 x3 (i 0) (i 1) (i 2))

end Output

/-- The reference program's result is the specification's reference arrangement of the arguments. -/
theorem ref_eq (x0 : Cert.ReferenceIdeal.S4x2048x1024.Idx → EReal) (x1 : Cert.ReferenceIdeal.S3072x1024.Idx → EReal)
    (x2 : Cert.ReferenceIdeal.S1024x1024.Idx → EReal) (x3 : Cert.ReferenceIdeal.S1024.Idx → EReal) :
    Cert.ReferenceIdeal.Read.val_main_v30 (F := Ideal) x0 x1 x2 x3 = Cert.Attn.refFn x0 x1 x2 x3 := by
  rw [out_eq x0 x1 x2 x3, attn_eq x0 x1, proj_q x0 x1 (by omega), proj_k x0 x1 (by omega), proj_v x0 x1 (by omega)]
  rfl

end Cert.Attn.Ref

end
-- ==== Proof.LibNormalizedSum.lean ====
/-
  A weighted sum divided by the sum of its weights, on the extended reals.

  For real weights `e k` whose sum `l` is not zero and real values `v k`, dividing the weighted sum `∑ₖ e k · v k` by `l`
  is the weighted sum with every weight divided by `l` first. On the extended reals a product does not distribute over a
  sum at the infinities, so the statement is for REAL weights and values: then dividing by `l` is multiplying by the real
  `1 / l`, which moves across a finite sum of reals. This is the law between a softmax that normalises after the
  weighted sum of the values and one that normalises every weight before it. Also: the coercion of the reals into the
  extended reals commutes with finite sums, and a finite sum of reals is a real. Imports only the library.
-/
import Idealize.ShloMosaic.PureOps.Ideal
import Idealize.ShloMosaic.PureOps.Ideal.Laws

noncomputable section

namespace Cert.NormalizedSum

open Idealize.ShloMosaic

/-- The coercion of the reals into the extended reals commutes with finite sums. -/
theorem coe_finsum {α : Type} (s : Finset α) (f : α → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A finite sum of products of reals, taken on the extended reals, is a real. -/
theorem sum_mul_real {ι : Type} [Fintype ι] (a b : ι → EReal) (ha : ∀ k, ∃ r : ℝ, a k = r) (hb : ∀ k, ∃ r : ℝ, b k = r) :
    ∃ r : ℝ, (∑ k, a k * b k) = r := by
  choose ra hra using ha
  choose rb hrb using hb
  refine ⟨∑ k, ra k * rb k, ?_⟩
  rw [coe_finsum]
  exact Finset.sum_congr rfl fun k _ => by rw [hra, hrb, EReal.coe_mul]

/-- Dividing the weighted sum by the sum of the weights is dividing every weight first: real weights with a nonzero
    sum, real values. -/
theorem div_sum_eq_sum_div {ι : Type} [Fintype ι] (e v : ι → ℝ) (h : (∑ k, e k) ≠ 0) :
    Ideal.div (∑ k, (e k : EReal) * (v k : EReal)) (∑ k, (e k : EReal))
      = ∑ k, Ideal.div (e k : EReal) (∑ k', (e k' : EReal)) * (v k : EReal) := by
  rw [← coe_finsum, Ideal.div_coe h]
  have e1 : ∀ k, Ideal.div (e k : EReal) ((∑ k', e k' : ℝ) : EReal) * (v k : EReal) = ((e k * (1 / ∑ k', e k') * v k : ℝ) : EReal) := fun k => by
    rw [Ideal.div_coe h, ← EReal.coe_mul, ← EReal.coe_mul]
  have e2 : ∀ k, (e k : EReal) * (v k : EReal) = ((e k * v k : ℝ) : EReal) := fun k => by rw [← EReal.coe_mul]
  rw [Finset.sum_congr rfl fun k _ => e1 k, Finset.sum_congr rfl fun k _ => e2 k, ← coe_finsum, ← coe_finsum, ← EReal.coe_mul]
  congr 1
  rw [Finset.sum_mul]
  exact Finset.sum_congr rfl fun k _ => by ring

/-- The maximum, folded from the bottom element, of a non-empty finite family of reals is a real. -/
theorem fold_max_real {ι : Type} [Fintype ι] [Nonempty ι] (g : ι → ℝ) :
    ∃ r : ℝ, (Finset.univ : Finset ι).fold max (⊥ : EReal) (fun m => (g m : EReal)) = r := by
  obtain ⟨i, -, hi⟩ := Finset.exists_mem_eq_sup (Finset.univ : Finset ι) Finset.univ_nonempty (fun m => (g m : EReal))
  exact ⟨g i, hi⟩

end Cert.NormalizedSum

end
-- ==== Proof.AttnLaw.lean ====
/-
  One row of softmax attention on the extended reals: its two arrangements agree on real inputs.

  For a real query row `q`, real keys `K` and real values `V`, every score `(∑_d q d · K m d) · 1/8` is a real (the
  scale is the real 1/8), the maximum folded from −∞ over the 2048 scores is one of them, so every weight
  `exp (s m − max s)` is a positive real and the normaliser, their sum, is a positive real. Dividing by it is then
  multiplying by a real, which moves across a finite sum of reals: dividing the weighted sum of the values by the
  normaliser (`rowAfter`) equals dividing every weight first (`rowBefore`), and the common value is a real.
-/
import proofs.«122774_j65481071402676_2_alg».proof.Proof.Spec
import proofs.«122774_j65481071402676_2_alg».proof.Proof.LibNormalizedSum

noncomputable section

namespace Cert.Attn

open Idealize.ShloMosaic

/-- The word with sign bit set, all-ones exponent and zero significand is −∞. -/
theorem negInf_eq_bot : negInf = (⊥ : EReal) := by simp [negInf, Ideal.ofBits, Ideal.ieee]

/-- A pattern whose exponent field is not all ones denotes a real. -/
theorem ieee_real {e m w : Nat} (b : BitVec w) (h : (b.extractLsb' m e).toNat ≠ 2 ^ e - 1) :
    ∃ r : ℝ, Ideal.ieee e m b = r := by
  simp only [Ideal.ieee]
  split_ifs <;> first | exact ⟨_, rfl⟩ | exact absurd (by assumption) h

/-- The scale is a real (its exponent field is 124, not 255). -/
theorem scale_real : ∃ r : ℝ, scale = r := by
  show ∃ r : ℝ, Ideal.ieee 8 23 (0x3E000000#32) = r
  exact ieee_real _ (by decide)

/-- On a real query row and real keys every weight is a real, and the weights' sum is not zero. -/
theorem weights_real (q : Fin 64 → EReal) (K : Fin 2048 → Fin 64 → EReal)
    (hq : ∀ d, ∃ r : ℝ, q d = r) (hK : ∀ m d, ∃ r : ℝ, K m d = r) :
    ∃ W : Fin 2048 → ℝ, (∀ m, weight q K m = (W m : EReal)) ∧ (∑ m, W m) ≠ 0 := by
  obtain ⟨c, hc⟩ := scale_real
  -- every score is a real
  have hs : ∀ m, ∃ r : ℝ, score q K m = r := fun m => by
    obtain ⟨t, ht⟩ := Cert.NormalizedSum.sum_mul_real q (K m) hq (hK m)
    refine ⟨t * c, ?_⟩
    unfold score
    rw [ht, hc, EReal.coe_mul]
  choose s hs using hs
  -- so is their maximum
  obtain ⟨mx, hmx⟩ := Cert.NormalizedSum.fold_max_real (ι := Fin 2048) s
  have hmx' : rowMax q K = mx := by
    unfold rowMax
    rw [negInf_eq_bot, ← hmx]
    exact congrArg (fun f => (Finset.univ : Finset (Fin 2048)).fold max (⊥ : EReal) f) (funext hs)
  -- the weights are exponentials of reals, so positive reals
  refine ⟨fun m => Real.exp (s m - mx), fun m => ?_, ?_⟩
  · unfold weight
    rw [hmx', hs, ← EReal.coe_sub, Ideal.exp_coe]
  · exact (Finset.sum_pos (fun m _ => Real.exp_pos _) Finset.univ_nonempty).ne'

/-- On real inputs the two arrangements of a row agree. -/
theorem rowBefore_eq_rowAfter (q : Fin 64 → EReal) (K V : Fin 2048 → Fin 64 → EReal)
    (hq : ∀ d, ∃ r : ℝ, q d = r) (hK : ∀ m d, ∃ r : ℝ, K m d = r) (hV : ∀ m d, ∃ r : ℝ, V m d = r) (d : Fin 64) :
    rowBefore q K V d = rowAfter q K V d := by
  obtain ⟨W, hW, hne⟩ := weights_real q K hq hK
  choose v hv using hV
  have hn : norm q K = ∑ m, (W m : EReal) := by
    unfold norm
    exact Finset.sum_congr rfl fun m _ => hW m
  have hb : rowBefore q K V d = ∑ m, Ideal.div (W m : EReal) (∑ m', (W m' : EReal)) * (v m d : EReal) := by
    unfold rowBefore
    rw [hn]
    exact Finset.sum_congr rfl fun m _ => by rw [hW, hv]
  have ha : rowAfter q K V d = Ideal.div (∑ m, (W m : EReal) * (v m d : EReal)) (∑ m, (W m : EReal)) := by
    unfold rowAfter
    rw [hn]
    exact congrArg (fun t => Ideal.div t (∑ m, (W m : EReal))) (Finset.sum_congr rfl fun m _ => by rw [hW, hv])
  rw [hb, ha]
  exact (Cert.NormalizedSum.div_sum_eq_sum_div W (fun m => v m d) hne).symm

/-- On real inputs a row's value is a real. -/
theorem rowAfter_real (q : Fin 64 → EReal) (K V : Fin 2048 → Fin 64 → EReal)
    (hq : ∀ d, ∃ r : ℝ, q d = r) (hK : ∀ m d, ∃ r : ℝ, K m d = r) (hV : ∀ m d, ∃ r : ℝ, V m d = r) (d : Fin 64) :
    ∃ r : ℝ, rowAfter q K V d = r := by
  obtain ⟨W, hW, hne⟩ := weights_real q K hq hK
  have hn : norm q K = ((∑ m, W m : ℝ) : EReal) := by
    unfold norm
    rw [Cert.NormalizedSum.coe_finsum]
    exact Finset.sum_congr rfl fun m _ => hW m
  obtain ⟨t, ht⟩ := Cert.NormalizedSum.sum_mul_real (fun m => weight q K m) (fun m => V m d)
    (fun m => ⟨W m, hW m⟩) (fun m => hV m d)
  have ht' : (∑ m, weight q K m * V m d) = (t : EReal) := ht
  refine ⟨t * (1 / ∑ m, W m), ?_⟩
  unfold rowAfter
  rw [hn, Ideal.div_coe hne, ht', EReal.coe_mul]

end Cert.Attn

end
-- ==== Proof.Bridge.lean ====
/-
  The two arrangements of the whole computation agree on real inputs.

  With every entry of the input and of the joint projection weight a real number, every entry of the three projections is
  a finite sum of products of reals, hence a real; so every query row, key row and value row the attention reads is real,
  and there dividing the weighted sum of the values by the normaliser is dividing every weight first. The output
  projection is the same function of the attention output in both arrangements.
-/
import proofs.«122774_j65481071402676_2_alg».proof.Proof.Spec
import proofs.«122774_j65481071402676_2_alg».proof.Proof.AttnLaw
import proofs.«122774_j65481071402676_2_alg».proof.Proof.LibNormalizedSum

noncomputable section

namespace Cert.Attn

open Idealize.ShloMosaic Idealize.ShloMosaic.ValueIdx

/-- A projection of real arrays has real entries. -/
theorem proj_real (off : ℕ) (hoff : off + 1024 ≤ 3072) (x : SX.Idx → EReal) (w : SWq.Idx → EReal)
    (hx : ∀ i, ∃ r : ℝ, x i = r) (hw : ∀ i, ∃ r : ℝ, w i = r) (i : SHeads.Idx) : ∃ r : ℝ, proj off hoff x w i = r := by
  unfold proj projAt
  exact NormalizedSum.sum_mul_real _ _ (fun e => hx _) (fun e => hw _)

/-- On real arrays in head layout the two arrangements of the attention agree. -/
theorem attnBefore_eq_attnAfter (Q K V : SHeads.Idx → EReal) (hQ : ∀ i, ∃ r : ℝ, Q i = r) (hK : ∀ i, ∃ r : ℝ, K i = r)
    (hV : ∀ i, ∃ r : ℝ, V i = r) : attnBefore Q K V = attnAfter Q K V :=
  funext fun i => rowBefore_eq_rowAfter _ _ _ (fun d => hQ _) (fun m d => hK _) (fun m d => hV _) _

/-- On a real input and a real joint projection weight the reference's arrangement is the kernel's. -/
theorem refFn_eq_kernelFn (x : SX.Idx → EReal) (w : SWq.Idx → EReal) (wo : SWo.Idx → EReal) (bias : SBias.Idx → EReal)
    (hx : ∀ i, ∃ r : ℝ, x i = r) (hw : ∀ i, ∃ r : ℝ, w i = r) : refFn x w wo bias = kernelFn x w wo bias := by
  unfold refFn kernelFn
  rw [attnBefore_eq_attnAfter _ _ _ (proj_real 0 (by omega) x w hx hw) (proj_real 1024 (by omega) x w hx hw)
    (proj_real 2048 (by omega) x w hx hw)]

end Cert.Attn

end
-- ==== Proof.FiniteInputs.lean ====
/-
  The precondition read back: every entry of the four argument arrays is a real number.

  The printed predicate is the conjunction, over the four arrays, of "every entry `x` has `|x| < +∞`", where `|x|` is
  `max x (-x)` on the extended reals and `+∞` is the word `0x7F800000`. An extended real with `max x (-x) < ⊤` is neither
  `⊥` (whose negation is `⊤`) nor `⊤`: it is a real. Each "every entry" is a reduction by `and` into a result of one
  index, which is one exactly when every element is.
-/
import proofs.«122774_j65481071402676_2_alg».proof.Pre_finite_inputs
import proofs.«122774_j65481071402676_2_alg».proof.Proof.Gen.Pre_finite_inputs
import Idealize.ShloMosaic.Lib.ReduceAll
import Idealize.ShloMosaic.Lib.ValueIdx
import Idealize.ShloMosaic.PureOps.Ideal.Laws

namespace Cert.Attn.Finite

open Idealize.ShloMosaic Cert.Pre_finite_inputs

/-- The rank-0 shape has one index. -/
instance subsingleton_scalar_idx : Subsingleton S_.Idx := ⟨fun a b => funext fun d => d.elim0⟩

/-- The word `0x7F800000` is `+∞`. -/
theorem inf_word : Ideal.ofBits .f32 0x7F800000#32 = (⊤ : EReal) := by
  simp [Ideal.ofBits, Ideal.ieee]

theorem ofBool_eq_one (b : Bool) : BitVec.ofBool b = 1#1 ↔ b = true := by cases b <;> decide

/-- An extended real whose absolute value `max x (-x)` compares below the word `0x7F800000` is a real. -/
theorem real_of_abs_lt (x : EReal)
    (h : Ideal.cmp .olt (max x (-x)) (Ideal.ofBits .f32 0x7F800000#32) = 1#1) : ∃ r : ℝ, x = (r : EReal) := by
  have h1 : BitVec.ofBool (decide (max x (-x) < Ideal.ofBits .f32 0x7F800000#32)) = 1#1 := h
  rw [ofBool_eq_one, decide_eq_true_eq, inf_word] at h1
  induction x using EReal.rec with
  | bot =>
    rw [EReal.neg_bot, max_eq_right bot_le] at h1
    exact absurd h1 (lt_irrefl _)
  | coe r => exact ⟨r, rfl⟩
  | top =>
    rw [max_eq_left le_top] at h1
    exact absurd h1 (lt_irrefl _)

/-- The precondition holds only of arrays of reals. -/
theorem real_of_pre [Cert.Pre_finite_inputs.Facts]
    (a0 : FVec Ideal Cert.Pre_finite_inputs.S4x2048x1024 .f32) (a1 : FVec Ideal Cert.Pre_finite_inputs.S3072x1024 .f32)
    (a2 : FVec Ideal Cert.Pre_finite_inputs.S1024x1024 .f32) (a3 : FVec Ideal Cert.Pre_finite_inputs.S1024 .f32)
    (h : Cert.Pre_finite_inputs.fn (F := Ideal) a0 a1 a2 a3 = (fun _ => 1#1)) :
    (∀ i, ∃ r : ℝ, a0 i = r) ∧ (∀ i, ∃ r : ℝ, a1 i = r) ∧ (∀ i, ∃ r : ℝ, a2 i = r) ∧ (∀ i, ∃ r : ℝ, a3 i = r) := by
  have e := congrFun h ValueIdx.ix0
  dsimp only [fn, fn_part1, andi] at e
  simp only [IntOp.andi_eq_one] at e
  obtain ⟨⟨⟨e0, e1⟩, e2⟩, e3⟩ := e
  exact ⟨fun i => real_of_abs_lt (a0 i) (Host.reduce_andi_all _ _ _ _ _ e0 i),
    fun i => real_of_abs_lt (a1 i) (Host.reduce_andi_all _ _ _ _ _ e1 i),
    fun i => real_of_abs_lt (a2 i) (Host.reduce_andi_all _ _ _ _ _ e2 i),
    fun i => real_of_abs_lt (a3 i) (Host.reduce_andi_all _ _ _ _ _ e3 i)⟩

end Cert.Attn.Finite
-- ==== Proof.lean ====
/-
  Multi-head softmax self-attention as three pipelined kernels (joint projection; attention per head and query tile;
  output projection with bias) against its plain reference, on the extended reals.

  Both programs compute, from the input x [4, 2048, 1024], the joint weight [3072, 1024], the output weight
  [1024, 1024] and the bias [1024]: the three projections in head layout, per query row the softmax weights
  exp (s − max s) of the scaled scores against the 2048 keys of its head, the weighted mean of the value rows, and the
  output projection plus bias. They differ in one place: the kernel divides the weighted sum of the values by the
  normaliser, the reference divides every weight by it first. On the extended reals a product does not distribute over
  a sum at the infinities, so the two are equated on real entries, which is what the precondition (every float input
  finite) gives: the projections of real arrays are real, the scores are real, their maximum over 2048 keys is real, the
  weights are positive reals and so is the normaliser. Changes of float format are the identity at the ideal values,
  so the kernel's casts do not appear.

  The kernel's frame is the generated one for both instances; its value is read off the frame's segments (the three
  regions' outputs as whole-array functions, the host layout steps between them as row-major re-indexings); the
  reference's run and its stages read at an index are the generated modules; the ideal pass rewrote nothing, so the
  idealization claim is trivial.
-/
import proofs.«122774_j65481071402676_2_alg».proof.Defs
import proofs.«122774_j65481071402676_2_alg».proof.Proof.Gen.Kernel
import proofs.«122774_j65481071402676_2_alg».proof.Proof.Gen.Kernel.Frame
import proofs.«122774_j65481071402676_2_alg».proof.Proof.Gen.KernelIdeal
import proofs.«122774_j65481071402676_2_alg».proof.Proof.Gen.KernelIdeal.Frame
import proofs.«122774_j65481071402676_2_alg».proof.Proof.Gen.ReferenceIdeal
import proofs.«122774_j65481071402676_2_alg».proof.Proof.Gen.ReferenceIdeal.Run
import proofs.«122774_j65481071402676_2_alg».proof.Proof.Gen.ReferenceIdeal.Read
import proofs.«122774_j65481071402676_2_alg».proof.Proof.Gen.Pre_finite_inputs
import proofs.«122774_j65481071402676_2_alg».proof.Proof.KernelValue
import proofs.«122774_j65481071402676_2_alg».proof.Proof.RefIsSpec
import proofs.«122774_j65481071402676_2_alg».proof.Proof.Bridge
import proofs.«122774_j65481071402676_2_alg».proof.Proof.FiniteInputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal values the kernel's result is `kernelFn` of its arguments and the reference's is `refFn` of arguments
    that agree; the precondition makes every entry of the input and of the joint weight a real, and there the two
    arrangements are one function. -/
theorem algebraic : Cert.algebraic_KernelIdeal_ReferenceIdeal := by
  intro m ρ m' ρ' hpre hagree
  refine ⟨_, Cert.Attn.KV.kernel_run m ρ, ?_⟩
  refine (θ_run Cert.ReferenceIdeal.defs _ _).mono (fun r h c => ⟨(h c).1.trans ?_, (h c).2⟩)
    (Cert.ReferenceIdeal.Value.run (F := Ideal) m' ρ')
  obtain ⟨h0, h1, h2, h3⟩ := Cert.Attn.Finite.real_of_pre _ _ _ _ (hpre c)
  rw [Cert.ReferenceIdeal.Read.val_main_v30_eq, Cert.Attn.Ref.ref_eq, (hagree c).1, (hagree c).2.1, (hagree c).2.2.1, (hagree c).2.2.2]
  exact Cert.Attn.refFn_eq_kernelFn _ _ _ _ h0 h1

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
